-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4096x1024 .f32) (main_arg1 : FVec F S4096x1024 .f32) (main_arg2 : FVec F S8192x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S4096x1024 : Shape := ⟨2, ![4096, 1024]⟩
abbrev S8192x1024 : Shape := ⟨2, ![8192, 1024]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩
abbrev S2x8x128 : Shape := ⟨3, ![2, 8, 128]⟩
abbrev S2048x1024 : Shape := ⟨2, ![2048, 1024]⟩
abbrev S2048x1 : Shape := ⟨2, ![2048, 1]⟩
abbrev S512x1024 : Shape := ⟨2, ![512, 1024]⟩
abbrev S1x8x128 : Shape := ⟨3, ![1, 8, 128]⟩
abbrev S8x128 : Shape := ⟨2, ![8, 128]⟩
abbrev S2048x512 : Shape := ⟨2, ![2048, 512]⟩
abbrev S2048 : Shape := ⟨1, ![2048]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S4096x1, .f32⟩
  | .hbm, ⟨5, _⟩ => ⟨S8192x1024, .bf16⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1, .f32⟩
  | .local _ .vmem, ⟨15, _⟩ => ⟨S2048x1, .f32⟩
  | .local _ .vmem, ⟨16, _⟩ => ⟨S512x1024, .bf16⟩
  | .local _ .vmem, ⟨17, _⟩ => ⟨S512x1024, .bf16⟩
  | .local _ .vmem, ⟨18, _⟩ => ⟨S1x8x128, .f32⟩
  | .local _ .vmem, ⟨19, _⟩ => ⟨S1x8x128, .f32⟩
  | .local _ .vmem, ⟨20, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S4096x1.size a
  hwx2_1 : ∀ i : grid2.Coords, EltTy.bits .f32 = 32 ∨ (Rect.block (s := S4096x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .bf16 = 32 ∨ (Rect.block (s := S8192x1024) S512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x128.size a ≤ S2x8x128.size a
  hwx2_3 : ∀ i : grid2.Coords, EltTy.bits .f32 = 32 ∨ (Rect.block (s := S2x8x128) S1x8x128.size (cc2_transform_3 i) (hinb2_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0_0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x8x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S4096x8192 : Shape := ⟨2, ![4096, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8192x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x8192, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x8192, .f32⟩
  | .hbm, ⟨42, _⟩ => ⟨S4096x8192, .f32⟩
  | .hbm, ⟨43, _⟩ => ⟨S_, .f32⟩
  | .hbm, ⟨44, _⟩ => ⟨S4096x8192, .f32⟩
  | .hbm, ⟨45, _⟩ => ⟨S4096x8192, .f32⟩
  | .hbm, ⟨46, _⟩ => ⟨S_, .f32⟩
  | .hbm, ⟨47, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S_d0_1 : S4096x8192.ReducesTo [0, 1] S_
  dot_S4096x1024_S8192x1024_S4096x8192_1_1_0_0_n_n_wf : DotDims.WF S4096x1024 S8192x1024 S4096x8192 [1] [1] [0] [0] [] []

variable [Facts₀]

def dot_S4096x1024_S8192x1024_S4096x8192_1_1_0_0_n_n : DotDims S4096x1024 S8192x1024 S4096x8192 where
  lhsContracting := [1]
  rhsContracting := [1]
  lhsNonContracting := [0]
  rhsNonContracting := [0]
  lhsBatch := []
  rhsBatch := []
  wf := dot_S4096x1024_S8192x1024_S4096x8192_1_1_0_0_n_n_wf

class Facts : Prop extends Facts₀ where

variable [Facts]
-- ==== Proof.Kernel.RegionUnit.lean ====
/-
  The first kernel region: the rows of `q` and `k` made unit rows, four blocks of 1024 rows.

  At grid point `t` the body reads block `t` of `q` and block `t` of `k` (1024 rows of 1024 entries each), and writes
  block `t` of two arrays: the unit rows of `q` (each entry times the reciprocal of its row's clamped norm), and the
  column of cosines `pos` (per row, the sum over the row of the product of the two unit rows).  Each output block is a
  pure function of the two input blocks, the same function at every point; nothing is kept between points.
  This module states what each output's block holds after the body as that function, runs the body once on
  symbolic blocks, and packages the per-point obligation of the pipeline for any contents `V` the region is entered at.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×1024 block and the whole 1024×1 block, as rectangles. -/
abbrev rq : Rect S1024x1024 := Rect.unit (s := S1024x1024) ![0, 0] S1024x1024.size inb_S1024x1024_S1024x1024_0_0
abbrev rp : Rect S1024x1 := Rect.unit (s := S1024x1) ![0, 0] S1024x1.size inb_S1024x1_S1024x1_0_0

/-- The unit rows of the `q` block: what the body leaves in the first output's buffer. -/
def unitRows0 (x0 : Vec F S1024x1024 .f32) : Vec F S1024x1024 .bf16 :=
  View.canon [⟨rq, k0_pay3 (View.ld x0 rq)⟩]
/-- The cosines of the block's pairs: what the body leaves in the second output's buffer. -/
def cosines0 (x0 x1 : Vec F S1024x1024 .f32) : Vec F S1024x1 .f32 :=
  View.canon [⟨rp, k0_pay2 (View.ld x0 rq) (View.ld x1 rq)⟩]

theorem coverq (p0 : Vec F S1024x1024 .bf16) (y : S1024x1024.Idx) :
    ∃ pc ∈ ([⟨rq, p0⟩] : List (View.Piece (Elt F) S1024x1024 .bf16)), y ∈ pc.1.set :=
  View.cover_of_tiled [⟨rq, p0⟩] S1024x1024.size (by rfl) y
theorem coverp (p0 : Vec F S1024x1 .f32) (y : S1024x1.Idx) :
    ∃ pc ∈ ([⟨rp, p0⟩] : List (View.Piece (Elt F) S1024x1 .f32)), y ∈ pc.1.set :=
  View.cover_of_tiled [⟨rp, p0⟩] S1024x1.size (by rfl) y

set_option maxHeartbeats 2000000 in
/-- The body on whole staging buffers: the inputs' at blocks `x0`, `x1`, the outputs' at anything; it ends with the
    inputs' as they were and the outputs' at the unit rows and the cosines of `x0`, `x1`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1 .f32) (harg4 : arg4.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (unitRows0 x0) ∗ owns (c : Thread nD τ) arg4 fullShare (cosines0 x0 x1)) -∗ K ⟨⟩))
      ⊢ wp frame (wpE (defs₀ (F := F)) Variants.none c none) E (cc0__normalize_qk_kernel i arg1 harg1 arg2 harg2 arg3 harg3 arg4 harg4) K := by
  simp only [cc0__normalize_qk_kernel_eq_skeleton]; unfold cc0__normalize_qk_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverq _)
  iexists _; isplitr
  swap; · iexact H3
  ipureintro
  exact View.read_writes_eq_canon _ _ _ (coverp _)

/-- The region's proof data on core `c`: the arrays as found; after the body each input's buffer at its block and each
    output's at its function of the two input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => unitRows0 (iblk0 V c 0 t)
    | ⟨3, _⟩ => cosines0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = unitRows0 (iblk0 V c 0 t) := by dsimp only [dat0]
theorem after0_3 (c : Dev nD) (t : Fin cfg0.N) : (dat0 V c).after 3 t = cosines0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.RegionQueue.lean ====
/-
  The second kernel region: the rows of the queue made unit rows, eight blocks of 1024 rows.

  At grid point `t` the body reads block `t` of the queue and writes block `t` of the output: each entry times the
  reciprocal of its row's clamped norm.  The output block is one pure function of the input block; nothing is kept
  between points.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block as a rectangle. -/
abbrev rc : Rect S1024x1024 := Rect.unit (s := S1024x1024) ![0, 0] S1024x1024.size inb_S1024x1024_S1024x1024_0_0

/-- The unit rows of the queue block: what the body leaves in the output's buffer. -/
def unitRows1 (x0 : Vec F S1024x1024 .f32) : Vec F S1024x1024 .bf16 :=
  View.canon [⟨rc, k1_pay1 (View.ld x0 rc)⟩]

theorem coverc (p0 : Vec F S1024x1024 .bf16) (y : S1024x1024.Idx) :
    ∃ pc ∈ ([⟨rc, p0⟩] : List (View.Piece (Elt F) S1024x1024 .bf16)), y ∈ pc.1.set :=
  View.cover_of_tiled [⟨rc, p0⟩] S1024x1024.size (by rfl) y

set_option maxHeartbeats 2000000 in
/-- The body on whole staging buffers: the input's at block `x0`, the output's at anything; it ends with the input's as
    it was and the output's at the unit rows of `x0`. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (unitRows1 x0)) -∗ K ⟨⟩))
      ⊢ wp frame (wpE (defs₀ (F := F)) Variants.none c none) E (cc1__normalize_queue_kernel i arg1 harg1 arg2 harg2) K := by
  simp only [cc1__normalize_queue_kernel_eq_skeleton]; unfold cc1__normalize_queue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverc _)

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => unitRows1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = unitRows1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.Kernel.RegionHinge.lean ====
/-
  The third kernel region: the hinge terms summed tile by tile, on a grid of 2 row tiles by 16 column tiles.

  At grid point `(b, n)` the body reads row tile `b` of the unit rows of `q` (2048 rows), the same rows of the cosine
  column, and column tile `n` of the queue's unit rows (512 rows); it forms the 2048 by 512 matrix of hinge terms,
  sums it to one number, and adds that number to every entry of an 8 by 128 accumulator that lives across grid points.
  The accumulator is set to zero at the first column tile of a row tile (`n = 0`) before the sum is added; at the last
  column tile (`n = 15`) it is copied out as block `b` of the result.  So after point `t` the accumulator holds, in every
  entry, the sum of the tile sums of the column tiles `0 … t mod 16` of the row tile `t / 16`: `accAt`, by recursion on
  the point.  The output window is idle at every point but the last of a row tile: its buffer is handed back untouched.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point: where the point does not fetch it, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as rectangles. -/
abbrev ra : Rect S2048x1024 := Rect.unit (s := S2048x1024) ![0, 0] S2048x1024.size inb_S2048x1024_S2048x1024_0_0
abbrev rb : Rect S2048x1 := Rect.unit (s := S2048x1) ![0, 0] S2048x1.size inb_S2048x1_S2048x1_0_0
abbrev rcq : Rect S512x1024 := Rect.unit (s := S512x1024) ![0, 0] S512x1024.size inb_S512x1024_S512x1024_0_0
abbrev r8 : Rect S8x128 := Rect.unit (s := S8x128) ![0, 0] S8x128.size inb_S8x128_S8x128_0_0
abbrev r3 : Rect S1x8x128 := Rect.unit (s := S1x8x128) ![0, 0, 0] S1x8x128.size inb_S1x8x128_S1x8x128_0_0_0

/-- "First column tile" and "last column tile", as the body computes them from the grid coordinates. -/
abbrev condFirst (i : grid2.Coords) : Prop := (Scalar.cmpi .ne (Scalar.extui (Scalar.cmpi .eq (BitVec.ofNat 32 (i 1).val) 0#32)) 0#32) = 1#1
abbrev condLast (i : grid2.Coords) : Prop := k2_cond2 i = 1#1
theorem hcondFirst : ∀ t : Fin cfg2.N, condFirst (grid2.coords t) ↔ t.val % 16 = 0 :=
  (by decide +kernel : ∀ t : Fin grid2.N, condFirst (grid2.coords t) ↔ t.val % 16 = 0)
theorem hcondLast : ∀ t : Fin cfg2.N, condLast (grid2.coords t) ↔ t.val % 16 = 15 :=
  (by decide +kernel : ∀ t : Fin grid2.N, condLast (grid2.coords t) ↔ t.val % 16 = 15)

/-- The inputs are never idle; the output is idle, and not written back, exactly off the last column tile. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬condLast (grid2.coords t) → cfg2.idle 3 (grid2.coords t) = true := by decide +kernel
theorem noFlush2_3 : ∀ t : Fin cfg2.N, ¬condLast (grid2.coords t) → (cfg2.win 3).flush t = false := by decide +kernel
theorem liveAt2_3 : ∀ t : Fin cfg2.N, condLast (grid2.coords t) → cfg2.idle 3 (grid2.coords t) = false := by decide +kernel

/-- The accumulator after the zero fill. -/
def zeroS : Vec F S8x128 .f32 := View.canon [⟨r8, k2_pay1 (F := F)⟩]
/-- The accumulator after a first column tile: zero, then the tile's sum added. -/
def firstS (x0 : Vec F S2048x1024 .bf16) (x1 : Vec F S2048x1 .f32) (x2 : Vec F S512x1024 .bf16) : Vec F S8x128 .f32 :=
  View.canon [⟨r8, k2_pay2 (View.ld x0 ra) (View.ld x2 rcq) (View.ld x1 rb) (View.ld (zeroS (F := F)) r8)⟩, ⟨r8, k2_pay1 (F := F)⟩]
/-- The accumulator after a later column tile: what the point before left, the tile's sum added. -/
def stepS (x0 : Vec F S2048x1024 .bf16) (x1 : Vec F S2048x1 .f32) (x2 : Vec F S512x1024 .bf16) (prev : Vec F S8x128 .f32) : Vec F S8x128 .f32 :=
  View.canon [⟨r8, k2_pay2 (View.ld x0 ra) (View.ld x2 rcq) (View.ld x1 rb) (View.ld prev r8)⟩]
/-- The output block: the accumulator with a leading unit axis. -/
def outS (acc : Vec F S8x128 .f32) : Vec F S1x8x128 .f32 :=
  View.canon [⟨r3, k2_pay3 (View.ld acc r8)⟩]

theorem cover8 (p0 : Vec F S8x128 .f32) (y : S8x128.Idx) :
    ∃ pc ∈ ([⟨r8, p0⟩] : List (View.Piece (Elt F) S8x128 .f32)), y ∈ pc.1.set :=
  View.cover_of_tiled [⟨r8, p0⟩] S8x128.size (by rfl) y
theorem cover8' (p0 p1 : Vec F S8x128 .f32) (y : S8x128.Idx) :
    ∃ pc ∈ ([⟨r8, p0⟩, ⟨r8, p1⟩] : List (View.Piece (Elt F) S8x128 .f32)), y ∈ pc.1.set := by
  obtain ⟨pc, hpc, hy⟩ := cover8 p0 y
  rcases List.mem_singleton.mp hpc with rfl
  exact ⟨_, List.mem_cons_self, hy⟩
theorem cover3 (p0 : Vec F S1x8x128 .f32) (y : S1x8x128.Idx) :
    ∃ pc ∈ ([⟨r3, p0⟩] : List (View.Piece (Elt F) S1x8x128 .f32)), y ∈ pc.1.set :=
  View.cover_of_tiled [⟨r3, p0⟩] S1x8x128.size (by rfl) y

set_option maxHeartbeats 4000000 in
/-- The body at a FIRST column tile (not the last): inputs at `x0 x1 x2`, the output's buffer at `xo` handed back as it
    was, the accumulator at anything; it ends with the accumulator at `firstS`. -/
theorem sound_first (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : condFirst i) (hc1 : ¬condLast i)
    (x0 : Vec F S2048x1024 .bf16) (x1 : Vec F S2048x1 .f32) (x2 : Vec F S512x1024 .bf16) (xo : Vec F S1x8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (firstS x0 x1 x2)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2; subst hfo
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.readCov_eq_canon_ld _ _ _ (cover8 _)]
  exact View.read_writes_eq_canon _ _ _ (cover8' _ _)

set_option maxHeartbeats 4000000 in
/-- The body at a MIDDLE column tile: the accumulator found at `xs` ends at `stepS … xs`; the output's buffer is handed
    back as it was. -/
theorem sound_step (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : ¬condFirst i) (hc1 : ¬condLast i)
    (x0 : Vec F S2048x1024 .bf16) (x1 : Vec F S2048x1 .f32) (x2 : Vec F S512x1024 .bf16) (xo : Vec F S1x8x128 .f32) (xs : Vec F S8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (stepS x0 x1 x2 xs)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  exact View.read_writes_eq_canon _ _ _ (cover8 _)

set_option maxHeartbeats 4000000 in
/-- The body at a LAST column tile (not the first): the accumulator found at `xs` ends at `stepS … xs`, and the output's
    buffer, found at anything, ends at that accumulator with a leading unit axis. -/
theorem sound_last (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : ¬condFirst i) (hc1 : condLast i)
    (x0 : Vec F S2048x1024 .bf16) (x1 : Vec F S2048x1 .f32) (x2 : Vec F S512x1024 .bf16) (xs : Vec F S8x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outS (stepS x0 x1 x2 xs)) ∗ owns (c : Thread nD τ) arg6 fullShare (stepS x0 x1 x2 xs)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  subst hf0; subst hf1; subst hf2; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    rw [View.readCov_eq_canon_ld _ _ _ (cover8 _)]
    exact View.read_writes_eq_canon _ _ _ (cover3 _)
  iexists _; isplitr
  swap; · iexact HS
  ipureintro
  exact View.read_writes_eq_canon _ _ _ (cover8 _)

/-- What the accumulator holds after the body at position `n`: by recursion on the point. -/
def accAt (c : Dev nD) : (n : ℕ) → n < cfg2.N → Vec F S8x128 .f32
  | 0, hn => firstS (iblk2 V c 0 ⟨0, hn⟩) (iblk2 V c 1 ⟨0, hn⟩) (iblk2 V c 2 ⟨0, hn⟩)
  | n + 1, hn =>
    if (n + 1) % 16 = 0 then firstS (iblk2 V c 0 ⟨n + 1, hn⟩) (iblk2 V c 1 ⟨n + 1, hn⟩) (iblk2 V c 2 ⟨n + 1, hn⟩)
    else stepS (iblk2 V c 0 ⟨n + 1, hn⟩) (iblk2 V c 1 ⟨n + 1, hn⟩) (iblk2 V c 2 ⟨n + 1, hn⟩) (accAt c n (Nat.lt_of_succ_lt hn))

theorem accAt_first (c : Dev nD) (t : Fin cfg2.N) (h : t.val % 16 = 0) :
    accAt V c t.val t.isLt = firstS (iblk2 V c 0 t) (iblk2 V c 1 t) (iblk2 V c 2 t) := by
  obtain ⟨n, hn⟩ := t
  cases n with
  | zero => exact rfl
  | succ n => exact (if_pos h).trans rfl

theorem accAt_next (c : Dev nD) (t : Fin cfg2.N) (h : ¬t.val % 16 = 0) :
    accAt V c t.val t.isLt = stepS (iblk2 V c 0 t) (iblk2 V c 1 t) (iblk2 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator as a whole scoped buffer. -/
abbrev scM : Memref sig .tc .vmem S8x128 .f32 := Memref.whole cc2_scratch0
/-- A scoped buffer of another region, whole at some contents. -/
abbrev stg (c : Dev nD) (r : Ref sig .tc) : sProp 𝕄 :=
  iprop(∃ f : Buf (Elt F) ((c : Thread nD τ).loc r), ((c : Thread nD τ).loc r) ↦{fullShare} f)
/-- The twelve staging buffers of the two earlier regions: untouched here. -/
def others (c : Dev nD) : sProp 𝕄 :=
  iprop(stg (F := F) c cc0_stg0_0 ∗ stg (F := F) c cc0_stg0_1 ∗ stg (F := F) c cc0_stg1_0 ∗ stg (F := F) c cc0_stg1_1 ∗ stg (F := F) c cc0_stg2_0 ∗ stg (F := F) c cc0_stg2_1
    ∗ stg (F := F) c cc0_stg3_0 ∗ stg (F := F) c cc0_stg3_1 ∗ stg (F := F) c cc1_stg0_0 ∗ stg (F := F) c cc1_stg0_1 ∗ stg (F := F) c cc1_stg1_0 ∗ stg (F := F) c cc1_stg1_1)

/-- The scoped rest with the accumulator taken out, both ways. -/
theorem PhiA_open (c : Dev nD) :
    (Pipeline.ΦA spec2 c : sProp 𝕄) ⊢ iprop((∃ d, owns (c : Thread nD τ) scM fullShare d) ∗ others (F := F) c ∗ (∃ r, prngReg c r)) := by
  unfold Pipeline.ΦA others; rw [scopedRest2_eq]; simp only [scM, owns_whole]
  iintro ⟨⟨A0, A1, A2, A3, A4, A5, A6, A7, A8, A9, A10, A11, S⟩, Hg⟩
  isplitl [S]; · iexact S
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hg
theorem PhiA_close (c : Dev nD) :
    iprop((∃ d, owns (c : Thread nD τ) scM fullShare d) ∗ others (F := F) c ∗ (∃ r, prngReg c r)) ⊢ (Pipeline.ΦA spec2 c : sProp 𝕄) := by
  unfold Pipeline.ΦA others; rw [scopedRest2_eq]; simp only [scM, owns_whole]
  iintro ⟨S, ⟨A0, A1, A2, A3, A4, A5, A6, A7, A8, A9, A10, A11⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexact S
  iexact Hg

/-- The region's invariant before position `n`: before the first point the scoped rest with the accumulator at anything;
    afterwards the accumulator at what the point before left. -/
def PhiS (c : Dev nD) : (n : ℕ) → n ≤ cfg2.N → sProp 𝕄
  | 0, _ => Pipeline.ΦA spec2 c
  | n + 1, hn => iprop(owns (c : Thread nD τ) scM fullShare (accAt V c n hn) ∗ others (F := F) c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare (accAt V c n hn) ∗ others (F := F) c ∗ (∃ r, prngReg c r)) := rfl
theorem PhiS_pos (c : Dev nD) (n : ℕ) (h : n ≤ cfg2.N) (hz : n ≠ 0) :
    PhiS V c n h = iprop(owns (c : Thread nD τ) scM fullShare (accAt V c (n - 1) (by omega)) ∗ others (F := F) c ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outS (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outS (accAt V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

end Region

end Cert.Kernel.Hand

end
-- ==== Proof.Kernel.HingeBody.lean ====
/-
  The per-point obligation of the third region.  A point is in one of three positions within its row tile: the first
  column tile (the accumulator is zeroed, then added to; the output's buffer is not touched), a middle one (added to;
  output not touched), the last (added to, then copied out).  At each the invariant hands the body the accumulator at
  what the point before left — at anything before the very first point and at the first column tile of the second row
  tile, where the body overwrites it — and takes it back at `accAt` of the point.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import proofs.«140744_j18545668784711_2_alg».proof.Proof.Kernel.RegionHinge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 32 := lt_of_lt_of_eq t.isLt (show cfg2.N = 32 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcondLast t).mp h))) (noFlush2_3 t (fun h => h1 ((hcondLast t).mp h)))]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HS, Hoth, Hg⟩
      iapply (sound_first c Set.univ (grid2.coords t) _ _ _ _ _ _ _ _ _ _ ((hcondFirst t).mpr h0) (fun h => h1 ((hcondLast t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply (sound_first c Set.univ (grid2.coords t) _ _ _ _ _ _ _ _ _ _ ((hcondFirst t).mpr h0) (fun h => h1 ((hcondLast t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [PhiS_castSucc V c t, PhiS_pos V c _ _ hz]
    by_cases h1 : t.val % 16 = 15
    · rw [show (dat2 V c).leavesExact 3 t = owns (c : Thread nD τ) (st2_3 t) fullShare ((dat2 V c).after 3 t) from by
        unfold Dat.leavesExact; rw [liveAt2_3 t ((hcondLast t).mpr h1)], after2_3]
      rw [accAt_next V c t h0]
      iintro ⟨⟨HS, Hoth, Hg⟩, Ho, ⟨%d0, H0⟩, ⟨%d1, H1⟩, ⟨%d2, H2⟩, ⟨%d3, H3⟩⟩
      iapply (sound_last c Set.univ (grid2.coords t) _ _ _ _ _ _ _ _ _ _ (fun h => h0 ((hcondFirst t).mp h)) ((hcondLast t).mpr h1) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcondLast t).mp h))) (noFlush2_3 t (fun h => h1 ((hcondLast t).mp h)))]
      iintro ⟨⟨HS, Hoth, Hg⟩, Ho, ⟨%d0, H0⟩, ⟨%d1, H1⟩, ⟨%d2, H2⟩, ⟨%d3, H3⟩⟩
      iapply (sound_step c Set.univ (grid2.coords t) _ _ _ _ _ _ _ _ _ _ (fun h => h0 ((hcondFirst t).mp h)) (fun h => h1 ((hcondLast t).mp h)) (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS V c 0 (Nat.zero_le _) from rfl, PhiS_zero V c 0 _ rfl]
  try exact Idealize.SL.BI.Entails.refl _

/-- After the last point the invariant gives the scoped rest back: the accumulator's contents are forgotten. -/
theorem hout2 (c : Dev nD) : (dat2 V c).Φ (Fin.last cfg2.N) ⊢ (Pipeline.ΦA spec2 c : sProp 𝕄) := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 32 := N_2; omega)]
  refine .trans ?_ (PhiA_close (F := F) c)
  iintro ⟨HS, Hoth, Hg⟩
  isplitl [HS]; · iexists _; iexact HS
  isplitl [Hoth]; · iexact Hoth
  iexact Hg

end Region

end Cert.Kernel.Hand

end
-- ==== Proof.Kernel.Run.lean ====
/-
  The whole program as four segments — the three kernel regions, then the four host operations that pick one entry of
  each result tile and add the two — and its run: every weakly fair execution ends, and every unscoped buffer then holds
  what the segments leave one after the other.  Between segments a core's unscoped buffers are held at the contents
  `W0 … W4`: the launch memory; after each region its arrays at what the region's write-backs leave and every other buffer
  as entered; after the host operations their composed results.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import proofs.«140744_j18545668784711_2_alg».proof.Proof.Gen.Kernel.Regions
import proofs.«140744_j18545668784711_2_alg».proof.Proof.Kernel.RegionUnit
import proofs.«140744_j18545668784711_2_alg».proof.Proof.Kernel.RegionQueue
import proofs.«140744_j18545668784711_2_alg».proof.Proof.Kernel.HingeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what the write-backs leave, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the host operations. -/
abbrev W4 : Dev nD → Valuation τ sig (Elt F) := fun c => StableHlo.after hostOps3 (W3 m c)

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state "every unscoped buffer at the boundary's contents, the generator register at some
    state, nothing owed": its arrays split out of the unscoped buffers at entry and put back at what the write-backs
    leave at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at what the write-backs
    leave at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V2 m) c)
    unfold Pipeline.ΦA
    iintro ⟨Hp, -, Hr⟩
    isplitl [Hr]; · iexact Hr
    iexact Hp
  hout c := by
    rw [Pipeline.ownSems0_none]
    refine (hout2 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .region (reg2 m),
    .host (hseg hostOps3 hostOps3_sub hostOps3_fresh (W3 m)) ]
theorem main_run (c : Dev nD) : main (F := F) c = Pipeline.Seg.run (segs m) := (main_chain c).trans (by chain_rfl)

set_option backward.isDefEq.respectTransparency.types false in
/-- THE RUN: from any memory with zero counters every weakly fair execution of the program ends, nothing faulting, and
    every unscoped buffer of every core then holds `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Kernel.Frames.lean ====
/-
  The frame: no segment writes an argument array.  The host operations write only their own results; a region changes
  only its output windows' arrays; an argument read through an input window ends at its entry contents.  So each
  argument's final contents, read back through the boundary contents `W4 … W0`, are the launch memory's.
-/
import proofs.«140744_j18545668784711_2_alg».proof.Proof.Gen.Kernel.Launch
import proofs.«140744_j18545668784711_2_alg».proof.Proof.Gen.Kernel.Skeleton
import proofs.«140744_j18545668784711_2_alg».proof.Proof.Gen.Kernel.Points
import proofs.«140744_j18545668784711_2_alg».proof.Proof.Kernel.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps3 _ hostOps3_writes (by decide)
    _ = W2 m c (Proc.devRef .tc main_arg2) := W3_of_ne m c main_arg2 (by decide)
    _ = W1 m c (Proc.devRef .tc main_arg2) := (W2_arr m c 0).trans (((dat1 (V1 m) c).arrAt_in 0 rfl _).trans (A_eq1 (V1 m) c 0))
    _ = W0 m c (Proc.devRef .tc main_arg2) := W1_of_ne m c main_arg2 (by decide)
    _ = m ((c : Thread nD τ).loc main_arg2) := rfl

/-- Every weakly fair execution ends, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The same run with the result named: it ends holding what the host operations make of the third region's array. -/
theorem run_value : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v5 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Hand

end
-- ==== Proof.KernelIdeal.RegionUnit.lean ====
/-
  The first kernel region: the rows of `q` and `k` made unit rows, four blocks of 1024 rows.

  At grid point `t` the body reads block `t` of `q` and block `t` of `k` (1024 rows of 1024 entries each), and writes
  block `t` of two arrays: the unit rows of `q` (each entry times the reciprocal of its row's clamped norm), and the
  column of cosines `pos` (per row, the sum over the row of the product of the two unit rows).  Each output block is a
  pure function of the two input blocks, the same function at every point; nothing is kept between points.
  This module states what each output's block holds after the body as that function, runs the body once on
  symbolic blocks, and packages the per-point obligation of the pipeline for any contents `V` the region is entered at.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×1024 block and the whole 1024×1 block, as rectangles. -/
abbrev rq : Rect S1024x1024 := Rect.unit (s := S1024x1024) ![0, 0] S1024x1024.size inb_S1024x1024_S1024x1024_0_0
abbrev rp : Rect S1024x1 := Rect.unit (s := S1024x1) ![0, 0] S1024x1.size inb_S1024x1_S1024x1_0_0

/-- The unit rows of the `q` block: what the body leaves in the first output's buffer. -/
def unitRows0 (x0 : Vec F S1024x1024 .f32) : Vec F S1024x1024 .bf16 :=
  View.canon [⟨rq, k0_pay3 (View.ld x0 rq)⟩]
/-- The cosines of the block's pairs: what the body leaves in the second output's buffer. -/
def cosines0 (x0 x1 : Vec F S1024x1024 .f32) : Vec F S1024x1 .f32 :=
  View.canon [⟨rp, k0_pay2 (View.ld x0 rq) (View.ld x1 rq)⟩]

theorem coverq (p0 : Vec F S1024x1024 .bf16) (y : S1024x1024.Idx) :
    ∃ pc ∈ ([⟨rq, p0⟩] : List (View.Piece (Elt F) S1024x1024 .bf16)), y ∈ pc.1.set :=
  View.cover_of_tiled [⟨rq, p0⟩] S1024x1024.size (by rfl) y
theorem coverp (p0 : Vec F S1024x1 .f32) (y : S1024x1.Idx) :
    ∃ pc ∈ ([⟨rp, p0⟩] : List (View.Piece (Elt F) S1024x1 .f32)), y ∈ pc.1.set :=
  View.cover_of_tiled [⟨rp, p0⟩] S1024x1.size (by rfl) y

set_option maxHeartbeats 2000000 in
/-- The body on whole staging buffers: the inputs' at blocks `x0`, `x1`, the outputs' at anything; it ends with the
    inputs' as they were and the outputs' at the unit rows and the cosines of `x0`, `x1`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1 .f32) (harg4 : arg4.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (unitRows0 x0) ∗ owns (c : Thread nD τ) arg4 fullShare (cosines0 x0 x1)) -∗ K ⟨⟩))
      ⊢ wp frame (wpE (defs₀ (F := F)) Variants.none c none) E (cc0__normalize_qk_kernel i arg1 harg1 arg2 harg2 arg3 harg3 arg4 harg4) K := by
  simp only [cc0__normalize_qk_kernel_eq_skeleton]; unfold cc0__normalize_qk_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverq _)
  iexists _; isplitr
  swap; · iexact H3
  ipureintro
  exact View.read_writes_eq_canon _ _ _ (coverp _)

/-- The region's proof data on core `c`: the arrays as found; after the body each input's buffer at its block and each
    output's at its function of the two input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => unitRows0 (iblk0 V c 0 t)
    | ⟨3, _⟩ => cosines0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = unitRows0 (iblk0 V c 0 t) := by dsimp only [dat0]
theorem after0_3 (c : Dev nD) (t : Fin cfg0.N) : (dat0 V c).after 3 t = cosines0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.RegionQueue.lean ====
/-
  The second kernel region: the rows of the queue made unit rows, eight blocks of 1024 rows.

  At grid point `t` the body reads block `t` of the queue and writes block `t` of the output: each entry times the
  reciprocal of its row's clamped norm.  The output block is one pure function of the input block; nothing is kept
  between points.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block as a rectangle. -/
abbrev rc : Rect S1024x1024 := Rect.unit (s := S1024x1024) ![0, 0] S1024x1024.size inb_S1024x1024_S1024x1024_0_0

/-- The unit rows of the queue block: what the body leaves in the output's buffer. -/
def unitRows1 (x0 : Vec F S1024x1024 .f32) : Vec F S1024x1024 .bf16 :=
  View.canon [⟨rc, k1_pay1 (View.ld x0 rc)⟩]

theorem coverc (p0 : Vec F S1024x1024 .bf16) (y : S1024x1024.Idx) :
    ∃ pc ∈ ([⟨rc, p0⟩] : List (View.Piece (Elt F) S1024x1024 .bf16)), y ∈ pc.1.set :=
  View.cover_of_tiled [⟨rc, p0⟩] S1024x1024.size (by rfl) y

set_option maxHeartbeats 2000000 in
/-- The body on whole staging buffers: the input's at block `x0`, the output's at anything; it ends with the input's as
    it was and the output's at the unit rows of `x0`. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (unitRows1 x0)) -∗ K ⟨⟩))
      ⊢ wp frame (wpE (defs₀ (F := F)) Variants.none c none) E (cc1__normalize_queue_kernel i arg1 harg1 arg2 harg2) K := by
  simp only [cc1__normalize_queue_kernel_eq_skeleton]; unfold cc1__normalize_queue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverc _)

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => unitRows1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = unitRows1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KernelIdeal.RegionHinge.lean ====
/-
  The third kernel region: the hinge terms summed tile by tile, on a grid of 2 row tiles by 16 column tiles.

  At grid point `(b, n)` the body reads row tile `b` of the unit rows of `q` (2048 rows), the same rows of the cosine
  column, and column tile `n` of the queue's unit rows (512 rows); it forms the 2048 by 512 matrix of hinge terms,
  sums it to one number, and adds that number to every entry of an 8 by 128 accumulator that lives across grid points.
  The accumulator is set to zero at the first column tile of a row tile (`n = 0`) before the sum is added; at the last
  column tile (`n = 15`) it is copied out as block `b` of the result.  So after point `t` the accumulator holds, in every
  entry, the sum of the tile sums of the column tiles `0 … t mod 16` of the row tile `t / 16`: `accAt`, by recursion on
  the point.  The output window is idle at every point but the last of a row tile: its buffer is handed back untouched.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point: where the point does not fetch it, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as rectangles. -/
abbrev ra : Rect S2048x1024 := Rect.unit (s := S2048x1024) ![0, 0] S2048x1024.size inb_S2048x1024_S2048x1024_0_0
abbrev rb : Rect S2048x1 := Rect.unit (s := S2048x1) ![0, 0] S2048x1.size inb_S2048x1_S2048x1_0_0
abbrev rcq : Rect S512x1024 := Rect.unit (s := S512x1024) ![0, 0] S512x1024.size inb_S512x1024_S512x1024_0_0
abbrev r8 : Rect S8x128 := Rect.unit (s := S8x128) ![0, 0] S8x128.size inb_S8x128_S8x128_0_0
abbrev r3 : Rect S1x8x128 := Rect.unit (s := S1x8x128) ![0, 0, 0] S1x8x128.size inb_S1x8x128_S1x8x128_0_0_0

/-- "First column tile" and "last column tile", as the body computes them from the grid coordinates. -/
abbrev condFirst (i : grid2.Coords) : Prop := (Scalar.cmpi .ne (Scalar.extui (Scalar.cmpi .eq (BitVec.ofNat 32 (i 1).val) 0#32)) 0#32) = 1#1
abbrev condLast (i : grid2.Coords) : Prop := k2_cond2 i = 1#1
theorem hcondFirst : ∀ t : Fin cfg2.N, condFirst (grid2.coords t) ↔ t.val % 16 = 0 :=
  (by decide +kernel : ∀ t : Fin grid2.N, condFirst (grid2.coords t) ↔ t.val % 16 = 0)
theorem hcondLast : ∀ t : Fin cfg2.N, condLast (grid2.coords t) ↔ t.val % 16 = 15 :=
  (by decide +kernel : ∀ t : Fin grid2.N, condLast (grid2.coords t) ↔ t.val % 16 = 15)

/-- The inputs are never idle; the output is idle, and not written back, exactly off the last column tile. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬condLast (grid2.coords t) → cfg2.idle 3 (grid2.coords t) = true := by decide +kernel
theorem noFlush2_3 : ∀ t : Fin cfg2.N, ¬condLast (grid2.coords t) → (cfg2.win 3).flush t = false := by decide +kernel
theorem liveAt2_3 : ∀ t : Fin cfg2.N, condLast (grid2.coords t) → cfg2.idle 3 (grid2.coords t) = false := by decide +kernel

/-- The accumulator after the zero fill. -/
def zeroS : Vec F S8x128 .f32 := View.canon [⟨r8, k2_pay1 (F := F)⟩]
/-- The accumulator after a first column tile: zero, then the tile's sum added. -/
def firstS (x0 : Vec F S2048x1024 .bf16) (x1 : Vec F S2048x1 .f32) (x2 : Vec F S512x1024 .bf16) : Vec F S8x128 .f32 :=
  View.canon [⟨r8, k2_pay2 (View.ld x0 ra) (View.ld x2 rcq) (View.ld x1 rb) (View.ld (zeroS (F := F)) r8)⟩, ⟨r8, k2_pay1 (F := F)⟩]
/-- The accumulator after a later column tile: what the point before left, the tile's sum added. -/
def stepS (x0 : Vec F S2048x1024 .bf16) (x1 : Vec F S2048x1 .f32) (x2 : Vec F S512x1024 .bf16) (prev : Vec F S8x128 .f32) : Vec F S8x128 .f32 :=
  View.canon [⟨r8, k2_pay2 (View.ld x0 ra) (View.ld x2 rcq) (View.ld x1 rb) (View.ld prev r8)⟩]
/-- The output block: the accumulator with a leading unit axis. -/
def outS (acc : Vec F S8x128 .f32) : Vec F S1x8x128 .f32 :=
  View.canon [⟨r3, k2_pay3 (View.ld acc r8)⟩]

theorem cover8 (p0 : Vec F S8x128 .f32) (y : S8x128.Idx) :
    ∃ pc ∈ ([⟨r8, p0⟩] : List (View.Piece (Elt F) S8x128 .f32)), y ∈ pc.1.set :=
  View.cover_of_tiled [⟨r8, p0⟩] S8x128.size (by rfl) y
theorem cover8' (p0 p1 : Vec F S8x128 .f32) (y : S8x128.Idx) :
    ∃ pc ∈ ([⟨r8, p0⟩, ⟨r8, p1⟩] : List (View.Piece (Elt F) S8x128 .f32)), y ∈ pc.1.set := by
  obtain ⟨pc, hpc, hy⟩ := cover8 p0 y
  rcases List.mem_singleton.mp hpc with rfl
  exact ⟨_, List.mem_cons_self, hy⟩
theorem cover3 (p0 : Vec F S1x8x128 .f32) (y : S1x8x128.Idx) :
    ∃ pc ∈ ([⟨r3, p0⟩] : List (View.Piece (Elt F) S1x8x128 .f32)), y ∈ pc.1.set :=
  View.cover_of_tiled [⟨r3, p0⟩] S1x8x128.size (by rfl) y

set_option maxHeartbeats 4000000 in
/-- The body at a FIRST column tile (not the last): inputs at `x0 x1 x2`, the output's buffer at `xo` handed back as it
    was, the accumulator at anything; it ends with the accumulator at `firstS`. -/
theorem sound_first (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : condFirst i) (hc1 : ¬condLast i)
    (x0 : Vec F S2048x1024 .bf16) (x1 : Vec F S2048x1 .f32) (x2 : Vec F S512x1024 .bf16) (xo : Vec F S1x8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (firstS x0 x1 x2)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2; subst hfo
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.readCov_eq_canon_ld _ _ _ (cover8 _)]
  exact View.read_writes_eq_canon _ _ _ (cover8' _ _)

set_option maxHeartbeats 4000000 in
/-- The body at a MIDDLE column tile: the accumulator found at `xs` ends at `stepS … xs`; the output's buffer is handed
    back as it was. -/
theorem sound_step (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : ¬condFirst i) (hc1 : ¬condLast i)
    (x0 : Vec F S2048x1024 .bf16) (x1 : Vec F S2048x1 .f32) (x2 : Vec F S512x1024 .bf16) (xo : Vec F S1x8x128 .f32) (xs : Vec F S8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (stepS x0 x1 x2 xs)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  exact View.read_writes_eq_canon _ _ _ (cover8 _)

set_option maxHeartbeats 4000000 in
/-- The body at a LAST column tile (not the first): the accumulator found at `xs` ends at `stepS … xs`, and the output's
    buffer, found at anything, ends at that accumulator with a leading unit axis. -/
theorem sound_last (c : Dev nD) (E : Set ℕ) (i : grid2.Coords)
    (arg2 : Memref sig .tc .vmem S2048x1024 .bf16) (harg2 : arg2.IsWhole) (arg3 : Memref sig .tc .vmem S2048x1 .f32) (harg3 : arg3.IsWhole)
    (arg4 : Memref sig .tc .vmem S512x1024 .bf16) (harg4 : arg4.IsWhole) (arg5 : Memref sig .tc .vmem S1x8x128 .f32) (harg5 : arg5.IsWhole)
    (arg6 : Memref sig .tc .vmem S8x128 .f32) (harg6 : arg6.IsWhole)
    (hc0 : ¬condFirst i) (hc1 : condLast i)
    (x0 : Vec F S2048x1024 .bf16) (x1 : Vec F S2048x1 .f32) (x2 : Vec F S512x1024 .bf16) (xs : Vec F S8x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outS (stepS x0 x1 x2 xs)) ∗ owns (c : Thread nD τ) arg6 fullShare (stepS x0 x1 x2 xs)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  subst hf0; subst hf1; subst hf2; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    rw [View.readCov_eq_canon_ld _ _ _ (cover8 _)]
    exact View.read_writes_eq_canon _ _ _ (cover3 _)
  iexists _; isplitr
  swap; · iexact HS
  ipureintro
  exact View.read_writes_eq_canon _ _ _ (cover8 _)

/-- What the accumulator holds after the body at position `n`: by recursion on the point. -/
def accAt (c : Dev nD) : (n : ℕ) → n < cfg2.N → Vec F S8x128 .f32
  | 0, hn => firstS (iblk2 V c 0 ⟨0, hn⟩) (iblk2 V c 1 ⟨0, hn⟩) (iblk2 V c 2 ⟨0, hn⟩)
  | n + 1, hn =>
    if (n + 1) % 16 = 0 then firstS (iblk2 V c 0 ⟨n + 1, hn⟩) (iblk2 V c 1 ⟨n + 1, hn⟩) (iblk2 V c 2 ⟨n + 1, hn⟩)
    else stepS (iblk2 V c 0 ⟨n + 1, hn⟩) (iblk2 V c 1 ⟨n + 1, hn⟩) (iblk2 V c 2 ⟨n + 1, hn⟩) (accAt c n (Nat.lt_of_succ_lt hn))

theorem accAt_first (c : Dev nD) (t : Fin cfg2.N) (h : t.val % 16 = 0) :
    accAt V c t.val t.isLt = firstS (iblk2 V c 0 t) (iblk2 V c 1 t) (iblk2 V c 2 t) := by
  obtain ⟨n, hn⟩ := t
  cases n with
  | zero => exact rfl
  | succ n => exact (if_pos h).trans rfl

theorem accAt_next (c : Dev nD) (t : Fin cfg2.N) (h : ¬t.val % 16 = 0) :
    accAt V c t.val t.isLt = stepS (iblk2 V c 0 t) (iblk2 V c 1 t) (iblk2 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator as a whole scoped buffer. -/
abbrev scM : Memref sig .tc .vmem S8x128 .f32 := Memref.whole cc2_scratch0
/-- A scoped buffer of another region, whole at some contents. -/
abbrev stg (c : Dev nD) (r : Ref sig .tc) : sProp 𝕄 :=
  iprop(∃ f : Buf (Elt F) ((c : Thread nD τ).loc r), ((c : Thread nD τ).loc r) ↦{fullShare} f)
/-- The twelve staging buffers of the two earlier regions: untouched here. -/
def others (c : Dev nD) : sProp 𝕄 :=
  iprop(stg (F := F) c cc0_stg0_0 ∗ stg (F := F) c cc0_stg0_1 ∗ stg (F := F) c cc0_stg1_0 ∗ stg (F := F) c cc0_stg1_1 ∗ stg (F := F) c cc0_stg2_0 ∗ stg (F := F) c cc0_stg2_1
    ∗ stg (F := F) c cc0_stg3_0 ∗ stg (F := F) c cc0_stg3_1 ∗ stg (F := F) c cc1_stg0_0 ∗ stg (F := F) c cc1_stg0_1 ∗ stg (F := F) c cc1_stg1_0 ∗ stg (F := F) c cc1_stg1_1)

/-- The scoped rest with the accumulator taken out, both ways. -/
theorem PhiA_open (c : Dev nD) :
    (Pipeline.ΦA spec2 c : sProp 𝕄) ⊢ iprop((∃ d, owns (c : Thread nD τ) scM fullShare d) ∗ others (F := F) c ∗ (∃ r, prngReg c r)) := by
  unfold Pipeline.ΦA others; rw [scopedRest2_eq]; simp only [scM, owns_whole]
  iintro ⟨⟨A0, A1, A2, A3, A4, A5, A6, A7, A8, A9, A10, A11, S⟩, Hg⟩
  isplitl [S]; · iexact S
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hg
theorem PhiA_close (c : Dev nD) :
    iprop((∃ d, owns (c : Thread nD τ) scM fullShare d) ∗ others (F := F) c ∗ (∃ r, prngReg c r)) ⊢ (Pipeline.ΦA spec2 c : sProp 𝕄) := by
  unfold Pipeline.ΦA others; rw [scopedRest2_eq]; simp only [scM, owns_whole]
  iintro ⟨S, ⟨A0, A1, A2, A3, A4, A5, A6, A7, A8, A9, A10, A11⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexact S
  iexact Hg

/-- The region's invariant before position `n`: before the first point the scoped rest with the accumulator at anything;
    afterwards the accumulator at what the point before left. -/
def PhiS (c : Dev nD) : (n : ℕ) → n ≤ cfg2.N → sProp 𝕄
  | 0, _ => Pipeline.ΦA spec2 c
  | n + 1, hn => iprop(owns (c : Thread nD τ) scM fullShare (accAt V c n hn) ∗ others (F := F) c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare (accAt V c n hn) ∗ others (F := F) c ∗ (∃ r, prngReg c r)) := rfl
theorem PhiS_pos (c : Dev nD) (n : ℕ) (h : n ≤ cfg2.N) (hz : n ≠ 0) :
    PhiS V c n h = iprop(owns (c : Thread nD τ) scM fullShare (accAt V c (n - 1) (by omega)) ∗ others (F := F) c ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outS (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outS (accAt V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

end Region

end Cert.KernelIdeal.Hand

end
-- ==== Proof.KernelIdeal.HingeBody.lean ====
/-
  The per-point obligation of the third region.  A point is in one of three positions within its row tile: the first
  column tile (the accumulator is zeroed, then added to; the output's buffer is not touched), a middle one (added to;
  output not touched), the last (added to, then copied out).  At each the invariant hands the body the accumulator at
  what the point before left — at anything before the very first point and at the first column tile of the second row
  tile, where the body overwrites it — and takes it back at `accAt` of the point.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import proofs.«140744_j18545668784711_2_alg».proof.Proof.KernelIdeal.RegionHinge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 32 := lt_of_lt_of_eq t.isLt (show cfg2.N = 32 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcondLast t).mp h))) (noFlush2_3 t (fun h => h1 ((hcondLast t).mp h)))]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HS, Hoth, Hg⟩
      iapply (sound_first c Set.univ (grid2.coords t) _ _ _ _ _ _ _ _ _ _ ((hcondFirst t).mpr h0) (fun h => h1 ((hcondLast t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply (sound_first c Set.univ (grid2.coords t) _ _ _ _ _ _ _ _ _ _ ((hcondFirst t).mpr h0) (fun h => h1 ((hcondLast t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [PhiS_castSucc V c t, PhiS_pos V c _ _ hz]
    by_cases h1 : t.val % 16 = 15
    · rw [show (dat2 V c).leavesExact 3 t = owns (c : Thread nD τ) (st2_3 t) fullShare ((dat2 V c).after 3 t) from by
        unfold Dat.leavesExact; rw [liveAt2_3 t ((hcondLast t).mpr h1)], after2_3]
      rw [accAt_next V c t h0]
      iintro ⟨⟨HS, Hoth, Hg⟩, Ho, ⟨%d0, H0⟩, ⟨%d1, H1⟩, ⟨%d2, H2⟩, ⟨%d3, H3⟩⟩
      iapply (sound_last c Set.univ (grid2.coords t) _ _ _ _ _ _ _ _ _ _ (fun h => h0 ((hcondFirst t).mp h)) ((hcondLast t).mpr h1) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcondLast t).mp h))) (noFlush2_3 t (fun h => h1 ((hcondLast t).mp h)))]
      iintro ⟨⟨HS, Hoth, Hg⟩, Ho, ⟨%d0, H0⟩, ⟨%d1, H1⟩, ⟨%d2, H2⟩, ⟨%d3, H3⟩⟩
      iapply (sound_step c Set.univ (grid2.coords t) _ _ _ _ _ _ _ _ _ _ (fun h => h0 ((hcondFirst t).mp h)) (fun h => h1 ((hcondLast t).mp h)) (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS V c 0 (Nat.zero_le _) from rfl, PhiS_zero V c 0 _ rfl]
  try exact Idealize.SL.BI.Entails.refl _

/-- After the last point the invariant gives the scoped rest back: the accumulator's contents are forgotten. -/
theorem hout2 (c : Dev nD) : (dat2 V c).Φ (Fin.last cfg2.N) ⊢ (Pipeline.ΦA spec2 c : sProp 𝕄) := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 32 := N_2; omega)]
  refine .trans ?_ (PhiA_close (F := F) c)
  iintro ⟨HS, Hoth, Hg⟩
  isplitl [HS]; · iexists _; iexact HS
  isplitl [Hoth]; · iexact Hoth
  iexact Hg

end Region

end Cert.KernelIdeal.Hand

end
-- ==== Proof.KernelIdeal.Run.lean ====
/-
  The whole program as four segments — the three kernel regions, then the four host operations that pick one entry of
  each result tile and add the two — and its run: every weakly fair execution ends, and every unscoped buffer then holds
  what the segments leave one after the other.  Between segments a core's unscoped buffers are held at the contents
  `W0 … W4`: the launch memory; after each region its arrays at what the region's write-backs leave and every other buffer
  as entered; after the host operations their composed results.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import proofs.«140744_j18545668784711_2_alg».proof.Proof.Gen.KernelIdeal.Regions
import proofs.«140744_j18545668784711_2_alg».proof.Proof.KernelIdeal.RegionUnit
import proofs.«140744_j18545668784711_2_alg».proof.Proof.KernelIdeal.RegionQueue
import proofs.«140744_j18545668784711_2_alg».proof.Proof.KernelIdeal.HingeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what the write-backs leave, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the host operations. -/
abbrev W4 : Dev nD → Valuation τ sig (Elt F) := fun c => StableHlo.after hostOps3 (W3 m c)

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state "every unscoped buffer at the boundary's contents, the generator register at some
    state, nothing owed": its arrays split out of the unscoped buffers at entry and put back at what the write-backs
    leave at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at what the write-backs
    leave at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V2 m) c)
    unfold Pipeline.ΦA
    iintro ⟨Hp, -, Hr⟩
    isplitl [Hr]; · iexact Hr
    iexact Hp
  hout c := by
    rw [Pipeline.ownSems0_none]
    refine (hout2 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .region (reg2 m),
    .host (hseg hostOps3 hostOps3_sub hostOps3_fresh (W3 m)) ]
theorem main_run (c : Dev nD) : main (F := F) c = Pipeline.Seg.run (segs m) := (main_chain c).trans (by chain_rfl)

set_option backward.isDefEq.respectTransparency.types false in
/-- THE RUN: from any memory with zero counters every weakly fair execution of the program ends, nothing faulting, and
    every unscoped buffer of every core then holds `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KernelIdeal.Frames.lean ====
/-
  The frame: no segment writes an argument array.  The host operations write only their own results; a region changes
  only its output windows' arrays; an argument read through an input window ends at its entry contents.  So each
  argument's final contents, read back through the boundary contents `W4 … W0`, are the launch memory's.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import proofs.«140744_j18545668784711_2_alg».proof.Proof.KernelIdeal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps3 _ hostOps3_writes (by decide)
    _ = W2 m c (Proc.devRef .tc main_arg2) := W3_of_ne m c main_arg2 (by decide)
    _ = W1 m c (Proc.devRef .tc main_arg2) := (W2_arr m c 0).trans (((dat1 (V1 m) c).arrAt_in 0 rfl _).trans (A_eq1 (V1 m) c 0))
    _ = W0 m c (Proc.devRef .tc main_arg2) := W1_of_ne m c main_arg2 (by decide)
    _ = m ((c : Thread nD τ).loc main_arg2) := rfl

/-- Every weakly fair execution ends, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The same run with the result named: it ends holding what the host operations make of the third region's array. -/
theorem run_value : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v5 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.Spec.lean ====
/-
  The pairwise cosine hinge loss as ONE number, a function of the three argument matrices, on the extended reals.

  For a matrix `x` with rows of length 1024, the clamped norm of row `r` is `max (√(Σ_d x[r,d]²)) ε`, and the row is
  made a unit row by multiplying each entry by `1 / norm`.  With `q̂, k̂, ĉ` the unit rows of `q`, `k` and the queue `c`:

      pos b      = Σ_d q̂[b,d] · k̂[b,d]                       (the cosine of the pair b)
      hinge b n  = max ((δ − pos b) + Σ_d q̂[b,d] · ĉ[n,d]) 0  (the margin violated by queue row n)
      total      = Σ_b Σ_n hinge b n

  The sum over `(b, n)` is written in the grouping by tiles — two row tiles of 2048 rows, sixteen column tiles of 512
  columns, rows inside a tile, columns inside a tile.  The four float literals stay as their bit patterns: both
  programs carry the same patterns, so none is ever evaluated except `1` and `0`.
-/
import Idealize.ShloMosaic.PureOps.Ideal
import Idealize.ShloMosaic.Lib.ValueIdx

noncomputable section

namespace Cert.HingeSpec

open Idealize.ShloMosaic

/-- The norm clamp `ε` (the float nearest 1e-8). -/
def eps : EReal := Ideal.ofBits .f32 0x322BCC77#32
/-- The margin `δ` (the float nearest 0.2). -/
def delta : EReal := Ideal.ofBits .f32 0x3E4CCCCD#32
/-- The float `1.0`. -/
def one : EReal := Ideal.ofBits .f32 0x3F800000#32
/-- The float `0.0`. -/
def zero : EReal := Ideal.ofBits .f32 0x00000000#32

/-- A matrix stored row-major, read at (row, column). -/
def rows {R C : Nat} (a : (⟨2, ![R, C]⟩ : Shape).Idx → EReal) (r : Fin R) (d : Fin C) : EReal := a (ValueIdx.ix2 r d)

/-- Every entry is a real number (neither infinity). -/
def AllReal {ι : Type} (a : ι → EReal) : Prop := ∀ i, ∃ r : ℝ, a i = (r : EReal)

/-- The clamped Euclidean norm of row `r`. -/
def nrm {R : Nat} (x : Fin R → Fin 1024 → EReal) (r : Fin R) : EReal :=
  max (Ideal.sqrt (∑ d : Fin 1024, x r d * x r d)) eps

/-- Row `r` scaled to unit length: each entry times the reciprocal of the clamped norm. -/
def unit {R : Nat} (x : Fin R → Fin 1024 → EReal) (r : Fin R) (d : Fin 1024) : EReal :=
  x r d * Ideal.div one (nrm x r)

/-- The cosine of the pair `b`. -/
def pos (q k : Fin 4096 → Fin 1024 → EReal) (b : Fin 4096) : EReal :=
  ∑ d : Fin 1024, unit q b d * unit k b d

/-- The cosine of `q`'s row `b` with the queue's row `n`. -/
def neg (q : Fin 4096 → Fin 1024 → EReal) (c : Fin 8192 → Fin 1024 → EReal) (b : Fin 4096) (n : Fin 8192) : EReal :=
  ∑ d : Fin 1024, unit q b d * unit c n d

/-- The hinge term of the pair `b` against queue row `n`. -/
def hinge (q k : Fin 4096 → Fin 1024 → EReal) (c : Fin 8192 → Fin 1024 → EReal) (b : Fin 4096) (n : Fin 8192) : EReal :=
  max ((delta - pos q k b) + neg q c b n) zero

/-- Row `r` of row tile `bt` (tiles of 2048 rows). -/
def rowOf (bt : Fin 2) (r : Fin 2048) : Fin 4096 := ⟨bt.val * 2048 + r.val, by have := bt.isLt; have := r.isLt; omega⟩
/-- Column `l` of column tile `nt` (tiles of 512 columns). -/
def colOf (nt : Fin 16) (l : Fin 512) : Fin 8192 := ⟨nt.val * 512 + l.val, by have := nt.isLt; have := l.isLt; omega⟩

/-- The hinge terms of one tile summed: rows, and inside a row the columns. -/
def tile (q k : Fin 4096 → Fin 1024 → EReal) (c : Fin 8192 → Fin 1024 → EReal) (bt : Fin 2) (nt : Fin 16) : EReal :=
  ∑ r : Fin 2048, ∑ l : Fin 512, hinge q k c (rowOf bt r) (colOf nt l)

/-- The loss: every hinge term summed, tile by tile. -/
def total (q k : Fin 4096 → Fin 1024 → EReal) (c : Fin 8192 → Fin 1024 → EReal) : EReal :=
  ∑ bt : Fin 2, ∑ nt : Fin 16, tile q k c bt nt

end Cert.HingeSpec

end
-- ==== Proof.PayLayout.lean ====
/-
  The column forms of two layout operations, read at an index given by coordinates.

  A sum along the rows of a matrix comes back as a vector `[a]`; kept as a column it is cast to `[a, 1]`, and a column
  is spread along each row by a broadcast `[a, 1] → [a, b]`.  A single number held as `[1, 1]` is spread over a whole
  matrix the same way.  Each lemma says which entry of the operand the result reads at `(p, c)`.
-/
import Idealize.ShloMosaic.Lib.ValueIdx
import Idealize.ShloMosaic.Lib.ValueLayout
import Idealize.ShloMosaic.Lib.Pipeline.Value

namespace Cert.KernelIdeal.Pay

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.KernelIdeal.Pay
-- ==== Proof.PayHinge.lean ====
/-
  The arithmetic of the hinge kernel's body, entry by entry, on the extended reals.

  For one tile of 2048 rows and 512 columns the body forms the matrix of products `Σ_d a[r,d] · b[l,d]` (the second
  axis of both operands is contracted), adds to each row `r` the number `δ − p[r]`, clamps every entry below by zero,
  sums each row, sums the column of row sums into one number, and adds that number to every entry of an 8 × 128
  accumulator.  Read at `(i, j)` the accumulator becomes what it held plus `Σ_r Σ_l max ((δ − p[r]) + Σ_d a[r,d] · b[l,d]) 0`.
  The accumulator starts as the float zero, and at the end is stored with one leading axis of length one.
-/
import proofs.«140744_j18545668784711_2_alg».proof.Proof.Gen.KernelIdeal.Skeleton
import proofs.«140744_j18545668784711_2_alg».proof.Proof.Spec
import proofs.«140744_j18545668784711_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.HingeSpec Idealize.ShloMosaic Idealize.ShloMosaic.ValueIdx

/-! ## The reductions and the matrix product of the hinge kernel's body, read at an index -/

/-- The sum along a row of a 2048 × 512 tile, read at row `r`: the plain sum of the row's entries. -/
theorem tileRowSum_apply (y : FVec Ideal S2048x512 .f32) (r : Fin 2048) :
    multiReduction (F := Ideal) .add [1] S2048 y 0x00000000#32 reduces_S2048x512_S2048 (.inl rfl) rfl (ix1 r)
      = ∑ l : Fin 512, y (ix2 r l) :=
  (Ideal.multiReduction_add_single y _ reduces_S2048x512_S2048 _ _ (ix1 r)).trans
    (Finset.sum_congr rfl fun k _ => congrArg y (funext fun a => Fin.ext (by
      match a with
      | ⟨0, _⟩ => rfl
      | ⟨1, _⟩ => rfl)))

/-- The sum down a column of 2048 entries, read at its one index: the plain sum of the column's entries. -/
theorem colSum_apply (y : FVec Ideal S2048x1 .f32) :
    multiReduction (F := Ideal) .add [0] S1 y 0x00000000#32 reduces_S2048x1_S1 (.inl rfl) rfl (ix1 (0 : Fin 1))
      = ∑ r : Fin 2048, y (ix2 r (0 : Fin 1)) :=
  (Ideal.multiReduction_add_single y _ reduces_S2048x1_S1 _ _ (ix1 (0 : Fin 1))).trans
    (Finset.sum_congr rfl fun k _ => congrArg y (funext fun a => Fin.ext (by
      match a with
      | ⟨0, _⟩ => rfl
      | ⟨1, _⟩ => rfl)))

/-- The left operand's index of the product at output `i`: its row is the output's row. -/
theorem tileDot_lhs0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl

/-- The right operand's index of the product at output `i`: its row is the output's column. -/
theorem tileDot_rhs0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- The matrix product into a zero accumulator contracts the second axis of both operands: entry `(r, l)` is
    `Σ_d a[r,d] · b[l,d]`. -/
theorem tileDot_apply (a : FVec Ideal S2048x1024 .bf16) (b : FVec Ideal S512x1024 .bf16) (r : Fin 2048) (l : Fin 512) :
    matmul (F := Ideal) dot_S2048x1024_S512x1024_S2048x512_1_1_0_0_n_n none a b (constant (F := Ideal) S2048x512 .f32 0x00000000#32) (ix2 r l)
      = ∑ d : Fin 1024, a (ix2 r d) * b (ix2 l d) := by
  simp only [matmul]
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 r l) ((contrEquiv1 dot_S2048x1024_S512x1024_S2048x512_1_1_0_0_n_n 1024 rfl rfl).symm k) = ix2 r k :=
    funext fun ax => Fin.ext (by
      match ax with
      | ⟨0, _⟩ => exact tileDot_lhs0 _ _
      | ⟨1, _⟩ => exact (dot_S2048x1024_S512x1024_S2048x512_1_1_0_0_n_n.lhsIdx_val_of_single rfl _ _).trans hk)
  have er : dot_S2048x1024_S512x1024_S2048x512_1_1_0_0_n_n.rhsIdx (ix2 r l) ((contrEquiv1 dot_S2048x1024_S512x1024_S2048x512_1_1_0_0_n_n 1024 rfl rfl).symm k) = ix2 l k :=
    funext fun ax => Fin.ext (by
      match ax with
      | ⟨0, _⟩ => exact tileDot_rhs0 _ _
      | ⟨1, _⟩ => exact (dot_S2048x1024_S512x1024_S2048x512_1_1_0_0_n_n.rhsIdx_val_of_single rfl _ _).trans hk)
  rw [el, er]

/-! ## The three payloads of the hinge kernel -/

/-- The accumulator after one tile, at `(i, j)`: what it held plus the tile's hinge terms, summed over the tile's rows
    and, inside a row, over its columns. -/
theorem pay_accumulate (v3 : Vec Ideal S2048x1024 .bf16) (v5 : Vec Ideal S512x1024 .bf16) (v8 : Vec Ideal S2048x1 .f32)
    (v20 : Vec Ideal S8x128 .f32) (i : Fin 8) (j : Fin 128) :
    k2_pay2 (F := Ideal) v3 v5 v8 v20 (ix2 i j)
      = v20 (ix2 i j) + ∑ r : Fin 2048, ∑ l : Fin 512,
          max ((delta - v8 (ix2 r (0 : Fin 1))) + ∑ d : Fin 1024, v3 (ix2 r d) * v5 (ix2 l d)) zero := by
  unfold k2_pay2
  simp only [shapeCast_self]
  rw [addf_apply, broadcastTo_11_ab_apply, shapeCast_a_1a_apply, colSum_apply]
  refine congrArg (v20 (ix2 i j) + ·) (Finset.sum_congr rfl fun r _ => ?_)
  rw [shapeCast_a_a1_apply, tileRowSum_apply]
  refine Finset.sum_congr rfl fun l _ => ?_
  rw [maximumf_apply, addf_apply, broadcastTo_a1_ab_apply, subf_apply, broadcast_apply, broadcast_apply, tileDot_apply]
  rfl

/-- The accumulator's first value, at `(i, j)`: the float zero. -/
theorem pay_zero (i : Fin 8) (j : Fin 128) : k2_pay1 (F := Ideal) (ix2 i j) = zero := by
  unfold k2_pay1
  rw [shapeCast_self, broadcast_apply]
  rfl

/-- The block the kernel stores at the end, at `(0, i, j)`: the accumulator at `(i, j)`. -/
theorem pay_lead (v30 : Vec Ideal S8x128 .f32) (i : Fin 8) (j : Fin 128) :
    k2_pay3 (F := Ideal) v30 (ix3 (0 : Fin 1) i j) = v30 (ix2 i j) := by
  unfold k2_pay3
  exact shapeCast_ab_1ab_apply v30 shapeCasts_S8x128_S1x8x128 (0 : Fin 1) i j

end Cert.KernelIdeal.Pay

end
-- ==== Proof.KernelIdeal.ValueHinge.lean ====
/-
  The third region's value at the ideal instance.  Every entry of the accumulator after a grid point is zero plus the
  tile sums of the column tiles of its row tile met so far (the fold over a row tile, in closed form); the block a last
  column tile writes back is therefore, in every entry, zero plus the sixteen tile sums of its row tile; and those
  blocks fill the result array.  A tile sum read through the blocks' positions in the three arrays the region reads is
  the specification's tile: rows `2048·b + r`, columns `512·n + l`.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import proofs.«140744_j18545668784711_2_alg».proof.Proof.KernelIdeal.RegionHinge
import proofs.«140744_j18545668784711_2_alg».proof.Proof.Spec
import proofs.«140744_j18545668784711_2_alg».proof.Proof.PayHinge
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.HingeSpec Idealize.ShloMosaic.ValueIdx Cert.KernelIdeal.Pay

theorem hz2 : (![0, 0] : Fin 2 → Nat) = fun _ => 0 := funext fun a => by fin_cases a <;> rfl
theorem hz3 : (![0, 0, 0] : Fin 3 → Nat) = fun _ => 0 := funext fun a => by fin_cases a <;> rfl

/-- The hinge terms of one tile summed, from the three blocks a grid point reads: rows, and inside a row the columns. -/
def blockSum (x0 : Vec Ideal S2048x1024 .bf16) (x1 : Vec Ideal S2048x1 .f32) (x2 : Vec Ideal S512x1024 .bf16) : EReal :=
  ∑ r : Fin 2048, ∑ l : Fin 512, max ((delta - x1 (ix2 r (0 : Fin 1))) + ∑ d : Fin 1024, x0 (ix2 r d) * x2 (ix2 l d)) zero

theorem zeroS_eq : zeroS (F := Ideal) = k2_pay1 (F := Ideal) := by
  unfold zeroS; exact View.canon_unit_zero hz2 _ _

/-- A later column tile adds its tile's sum to every entry of the accumulator. -/
theorem stepS_apply (x0 : Vec Ideal S2048x1024 .bf16) (x1 : Vec Ideal S2048x1 .f32) (x2 : Vec Ideal S512x1024 .bf16)
    (prev : Vec Ideal S8x128 .f32) (i : Fin 8) (j : Fin 128) :
    stepS (F := Ideal) x0 x1 x2 prev (ix2 i j) = prev (ix2 i j) + blockSum x0 x1 x2 := by
  unfold stepS blockSum
  rw [View.canon_unit_zero hz2]
  simp only [View.ld_unit_zero (S := S2048x1024) hz2, View.ld_unit_zero (S := S512x1024) hz2,
    View.ld_unit_zero (S := S2048x1) hz2, View.ld_unit_zero (S := S8x128) hz2]
  exact pay_accumulate x0 x2 x1 prev i j

/-- The first column tile leaves zero plus its tile's sum in every entry. -/
theorem firstS_apply (x0 : Vec Ideal S2048x1024 .bf16) (x1 : Vec Ideal S2048x1 .f32) (x2 : Vec Ideal S512x1024 .bf16)
    (i : Fin 8) (j : Fin 128) :
    firstS (F := Ideal) x0 x1 x2 (ix2 i j) = zero + blockSum x0 x1 x2 := by
  unfold firstS blockSum
  rw [zeroS_eq, View.canon_cons_unit_zero hz2]
  simp only [View.ld_unit_zero (S := S2048x1024) hz2, View.ld_unit_zero (S := S512x1024) hz2,
    View.ld_unit_zero (S := S2048x1) hz2, View.ld_unit_zero (S := S8x128) hz2]
  rw [pay_accumulate x0 x2 x1 _ i j, pay_zero]

section
variable (V : (c : Dev nD) → (b : Ref sig .tc) → Buf (Elt Ideal) ((c : Thread nD τ).loc b))

/-- The tile sum of grid position `n` (zero past the grid: never used there). -/
def pointSum (c : Dev nD) (n : ℕ) : EReal :=
  if h : n < cfg2.N then blockSum (iblk2 V c 0 ⟨n, h⟩) (iblk2 V c 1 ⟨n, h⟩) (iblk2 V c 2 ⟨n, h⟩) else 0

/-- THE ACCUMULATOR IN CLOSED FORM: after point `t` every entry holds zero plus the tile sums of the points of `t`'s row
    tile up to `t`. -/
theorem accAt_closed (c : Dev nD) (t : Fin cfg2.N) (y : S8x128.Idx) :
    accAt V c t.val t.isLt y = zero + ∑ s ∈ Finset.range (t.val % 16 + 1), pointSum V c (16 * (t.val / 16) + s) := by
  have hN : cfg2.N = 32 := N_2
  have h' : 16 * (t.val / 16) + t.val % 16 < cfg2.N := by rw [Nat.div_add_mod]; exact t.isLt
  rw [Pipeline.eq_accAt_of_mod (fun n h => accAt V c n h) 16
      (fun n h => firstS (F := Ideal) (iblk2 V c 0 ⟨n, h⟩) (iblk2 V c 1 ⟨n, h⟩) (iblk2 V c 2 ⟨n, h⟩))
      (fun n h acc => stepS (F := Ideal) (iblk2 V c 0 ⟨n, h⟩) (iblk2 V c 1 ⟨n, h⟩) (iblk2 V c 2 ⟨n, h⟩) acc)
      (fun n h hm => accAt_first V c ⟨n, h⟩ hm)
      (fun n h hm => accAt_next V c ⟨n + 1, h⟩ hm)
      (by decide) t.val t.isLt h']
  refine Pipeline.accAt_add_apply _ _ (fun _ => zero) (fun n _ => pointSum V c n) (16 * (t.val / 16)) 15 ?_ ?_ (t.val % 16) (by omega) h' y
  · intro h i
    obtain ⟨p, q, rfl⟩ : ∃ (p : Fin 8) (q : Fin 128), i = ix2 p q := ⟨i 0, i 1, eq_ix2 i⟩
    rw [firstS_apply]; unfold pointSum; rw [dif_pos h]
  · intro n h acc i _ _
    obtain ⟨p, q, rfl⟩ : ∃ (p : Fin 8) (q : Fin 128), i = ix2 p q := ⟨i 0, i 1, eq_ix2 i⟩
    rw [stepS_apply]; unfold pointSum; rw [dif_pos h]
end

section
variable (V : (c : Dev nD) → (b : Ref sig .tc) → Buf (Elt Ideal) ((c : Thread nD τ).loc b))

/-- The output window's block index at point `t`: its row tile on the first axis, zero on the others. -/
theorem idx3 : ∀ t : Fin cfg2.N, win2_3.index t (0 : Fin 3) = t.val / 16 ∧ win2_3.index t (1 : Fin 3) = 0 ∧ win2_3.index t (2 : Fin 3) = 0 :=
  (by decide +kernel : ∀ t : Fin grid2.N, win2_3.index t (0 : Fin 3) = t.val / 16 ∧ win2_3.index t (1 : Fin 3) = 0 ∧ win2_3.index t (2 : Fin 3) = 0)

/-- The third region's array after the run: every entry of result tile `b` is zero plus the sixteen tile sums of row tile `b`. -/
def tilesArr (c : Dev nD) : S2x8x128.Idx → EReal :=
  fun i => zero + ∑ s ∈ Finset.range 16, pointSum V c (16 * (i 0).val + s)

/-- What a last column tile writes back is its block of `tilesArr`. -/
theorem flushed3_eq (c : Dev nD) (t : Fin cfg2.N) (hf : (cfg2.win 3).flush t = true) :
    (dat2 (F := Ideal) V c).flushed 3 t = ((cfg2.win 3).blk t).view.read (Elt Ideal) (tilesArr V c) := by
  have h15 : t.val % 16 = 15 := (flush2_3 t).mp hf
  show (cfg2.win 3).cut (grid2.coords t) ((dat2 V c).after 3 t) = _
  rw [after2_3]
  unfold outS
  rw [View.canon_unit_zero hz3]
  simp only [View.ld_unit_zero (S := S8x128) hz2]
  obtain ⟨e0, e1, e2⟩ := idx3 t
  funext y
  obtain ⟨o, p, q, rfl⟩ : ∃ (o : Fin 1) (p : Fin 8) (q : Fin 128), y = ix3 o p q := ⟨y 0, y 1, y 2, eq_ix3 y⟩
  obtain rfl : o = 0 := Subsingleton.elim _ _
  show k2_pay3 (F := Ideal) (accAt V c t.val t.isLt) (ix3 0 p q) = tilesArr V c (((cfg2.win 3).blk t).view.emb (ix3 0 p q))
  rw [pay_lead, accAt_closed]
  unfold tilesArr
  have hemb : ((((cfg2.win 3).blk t).view.emb (ix3 (0 : Fin 1) p q)) 0).val = t.val / 16 := by
    show win2_3.index t (0 : Fin 3) * 1 + 1 * 0 = _; omega
  rw [hemb, h15]

theorem mem_blk3 (t : Fin cfg2.N) (i : S2x8x128.Idx) :
    i ∈ ((cfg2.win 3).blk t).view.set ↔ ∀ a : Fin 3, win2_3.index t a * S1x8x128.size a ≤ (i a).val ∧ (i a).val < win2_3.index t a * S1x8x128.size a + S1x8x128.size a := by
  show i ∈ ((View.whole main_v2).slice (win2_3.rect t)).set ↔ _
  rw [View.set_slice_whole, Rect.mem_set_unit]
  exact Iff.rfl

/-- Every entry of the array is in the block of the last column tile of its row tile. -/
theorem covered3 (i : S2x8x128.Idx) : ∃ t : Fin cfg2.N, (cfg2.win 3).flush t = true ∧ i ∈ ((cfg2.win 3).blk t).view.set := by
  have h0 : (i 0).val < 2 := (i 0).isLt
  have h1 : (i 1).val < 8 := (i 1).isLt
  have h2 : (i 2).val < 128 := (i 2).isLt
  have hN : cfg2.N = 32 := N_2
  have hlt : 16 * (i 0).val + 15 < cfg2.N := by omega
  refine ⟨⟨16 * (i 0).val + 15, hlt⟩, (flush2_3 _).mpr (by show (16 * (i 0).val + 15) % 16 = 15; omega), ?_⟩
  rw [mem_blk3]
  obtain ⟨e0, e1, e2⟩ := idx3 ⟨16 * (i 0).val + 15, hlt⟩
  have e0' : win2_3.index ⟨16 * (i 0).val + 15, hlt⟩ (0 : Fin 3) = (16 * (i 0).val + 15) / 16 := e0
  intro a
  match a with
  | ⟨0, _⟩ => show win2_3.index ⟨16 * (i 0).val + 15, hlt⟩ (0 : Fin 3) * 1 ≤ (i 0).val ∧ (i 0).val < win2_3.index ⟨16 * (i 0).val + 15, hlt⟩ (0 : Fin 3) * 1 + 1; omega
  | ⟨1, _⟩ => show win2_3.index ⟨16 * (i 0).val + 15, hlt⟩ (1 : Fin 3) * 8 ≤ (i 1).val ∧ (i 1).val < win2_3.index ⟨16 * (i 0).val + 15, hlt⟩ (1 : Fin 3) * 8 + 8; omega
  | ⟨2, _⟩ => show win2_3.index ⟨16 * (i 0).val + 15, hlt⟩ (2 : Fin 3) * 128 ≤ (i 2).val ∧ (i 2).val < win2_3.index ⟨16 * (i 0).val + 15, hlt⟩ (2 : Fin 3) * 128 + 128; omega

/-- THE THIRD REGION'S ARRAY after the run. -/
theorem tiles_final (c : Dev nD) : (dat2 (F := Ideal) V c).arrAt 3 cfg2.N = tilesArr V c :=
  (dat2 V c).arrAt_eq_of_cover 3 (tilesArr V c) (fun t hf => flushed3_eq V c t hf) (covered3)
end

section
variable (V : (c : Dev nD) → (b : Ref sig .tc) → Buf (Elt Ideal) ((c : Thread nD τ).loc b))

/-- The input windows' block indices at point `t`: the row tile for the two row operands, the column tile for the queue. -/
theorem idx012 : ∀ t : Fin cfg2.N, win2_0.index t (0 : Fin 2) = t.val / 16 ∧ win2_0.index t (1 : Fin 2) = 0
    ∧ win2_1.index t (0 : Fin 2) = t.val / 16 ∧ win2_1.index t (1 : Fin 2) = 0
    ∧ win2_2.index t (0 : Fin 2) = t.val % 16 ∧ win2_2.index t (1 : Fin 2) = 0 :=
  (by decide +kernel : ∀ t : Fin grid2.N, win2_0.index t (0 : Fin 2) = t.val / 16 ∧ win2_0.index t (1 : Fin 2) = 0
    ∧ win2_1.index t (0 : Fin 2) = t.val / 16 ∧ win2_1.index t (1 : Fin 2) = 0
    ∧ win2_2.index t (0 : Fin 2) = t.val % 16 ∧ win2_2.index t (1 : Fin 2) = 0)

/-- Row `r` of the unit-rows block at point `t` is row `2048·(t / 16) + r` of the array. -/
theorem blockQ (c : Dev nD) (t : Fin cfg2.N) (r : Fin 2048) (d : Fin 1024) (R : Fin 4096) (hR : R.val = t.val / 16 * 2048 + r.val) :
    iblk2 V c 0 t (ix2 r d) = V c main_v0_0 (ix2 R d) := by
  obtain ⟨e0, e1, -⟩ := idx012 t
  show V c main_v0_0 (((cfg2.win 0).blk t).view.emb (ix2 r d)) = _
  refine congrArg _ (funext fun a => Fin.ext ?_)
  match a with
  | ⟨0, _⟩ => show win2_0.index t (0 : Fin 2) * 2048 + 1 * r.val = R.val; omega
  | ⟨1, _⟩ => show win2_0.index t (1 : Fin 2) * 1024 + 1 * d.val = d.val; omega
theorem blockP (c : Dev nD) (t : Fin cfg2.N) (r : Fin 2048) (R : Fin 4096) (hR : R.val = t.val / 16 * 2048 + r.val) :
    iblk2 V c 1 t (ix2 r (0 : Fin 1)) = V c main_v0_1 (ix2 R (0 : Fin 1)) := by
  obtain ⟨-, -, e0, e1, -⟩ := idx012 t
  show V c main_v0_1 (((cfg2.win 1).blk t).view.emb (ix2 r (0 : Fin 1))) = _
  refine congrArg _ (funext fun a => Fin.ext ?_)
  match a with
  | ⟨0, _⟩ => show win2_1.index t (0 : Fin 2) * 2048 + 1 * r.val = R.val; omega
  | ⟨1, _⟩ => show win2_1.index t (1 : Fin 2) * 1 + 1 * 0 = 0; omega
theorem blockC (c : Dev nD) (t : Fin cfg2.N) (l : Fin 512) (d : Fin 1024) (n : Fin 8192) (hn : n.val = t.val % 16 * 512 + l.val) :
    iblk2 V c 2 t (ix2 l d) = V c main_v1 (ix2 n d) := by
  obtain ⟨-, -, -, -, e0, e1⟩ := idx012 t
  show V c main_v1 (((cfg2.win 2).blk t).view.emb (ix2 l d)) = _
  refine congrArg _ (funext fun a => Fin.ext ?_)
  match a with
  | ⟨0, _⟩ => show win2_2.index t (0 : Fin 2) * 512 + 1 * l.val = n.val; omega
  | ⟨1, _⟩ => show win2_2.index t (1 : Fin 2) * 1024 + 1 * d.val = d.val; omega

/-- The tile sum of point `16·bt + nt` is the specification's tile `(bt, nt)`, when the three arrays the region is entered
    at hold the unit rows of `q`, the cosines and the unit rows of the queue. -/
theorem pointSum_eq (c : Dev nD) (q k : Fin 4096 → Fin 1024 → EReal) (cq : Fin 8192 → Fin 1024 → EReal)
    (hQ : ∀ (R : Fin 4096) (d : Fin 1024), V c main_v0_0 (ix2 R d) = unit q R d)
    (hP : ∀ R : Fin 4096, V c main_v0_1 (ix2 R (0 : Fin 1)) = pos q k R)
    (hC : ∀ (n : Fin 8192) (d : Fin 1024), V c main_v1 (ix2 n d) = unit cq n d)
    (bt : Fin 2) (nt : Fin 16) : pointSum V c (16 * bt.val + nt.val) = tile q k cq bt nt := by
  have hb := bt.isLt; have hn := nt.isLt
  have hN : cfg2.N = 32 := N_2
  have hlt : 16 * bt.val + nt.val < cfg2.N := by omega
  unfold pointSum; rw [dif_pos hlt]
  unfold blockSum tile hinge neg
  refine Finset.sum_congr rfl fun r _ => Finset.sum_congr rfl fun l _ => ?_
  have hR : (rowOf bt r).val = (16 * bt.val + nt.val) / 16 * 2048 + r.val := by
    show bt.val * 2048 + r.val = _; omega
  have hn' : (colOf nt l).val = (16 * bt.val + nt.val) % 16 * 512 + l.val := by
    show nt.val * 512 + l.val = _; omega
  rw [blockP V c ⟨16 * bt.val + nt.val, hlt⟩ r (rowOf bt r) hR, hP]
  refine congrArg (fun x => max (delta - pos q k (rowOf bt r) + x) zero) (Finset.sum_congr rfl fun d _ => ?_)
  rw [blockQ V c ⟨16 * bt.val + nt.val, hlt⟩ r d (rowOf bt r) hR, hQ,
    blockC V c ⟨16 * bt.val + nt.val, hlt⟩ l d (colOf nt l) hn', hC]
end

end Cert.KernelIdeal.Hand

end
-- ==== Proof.RowLocal.lean ====
/-
  The unit row and the clamped norm of a row depend only on that row.

  If row `r` of a matrix `x` and row `r'` of a matrix `y` (with possibly different numbers of rows) have the same
  entries, they have the same sum of squares, hence the same clamped norm, and entry by entry the same unit row.  This
  is what lets a block of rows be normalised by itself: the unit rows of a block are the block of the unit rows.
-/
import proofs.«140744_j18545668784711_2_alg».proof.Proof.Spec

noncomputable section

namespace Cert.RefSide

open Idealize.ShloMosaic Cert.HingeSpec

/-- Equal rows have equal clamped norms. -/
theorem nrm_congr {R R' : Nat} (x : Fin R → Fin 1024 → EReal) (y : Fin R' → Fin 1024 → EReal) (r : Fin R) (r' : Fin R')
    (h : ∀ d, x r d = y r' d) : nrm x r = nrm y r' := by
  unfold nrm
  rw [Finset.sum_congr rfl fun d _ => by rw [h d]]

/-- Equal rows have equal unit rows. -/
theorem unit_congr {R R' : Nat} (x : Fin R → Fin 1024 → EReal) (y : Fin R' → Fin 1024 → EReal) (r : Fin R) (r' : Fin R')
    (h : ∀ d, x r d = y r' d) (d : Fin 1024) : unit x r d = unit y r' d := by
  unfold unit
  rw [h d, nrm_congr x y r r' h]

end Cert.RefSide

end
-- ==== Proof.PayUnit.lean ====
/-
  The arithmetic of the two normalising kernel bodies, entry by entry, on the extended reals.

  Each body squares its block, sums every row, takes the root, clamps it below by `ε`, and multiplies the block by the
  reciprocal of that clamped norm, spread back along the row.  Read at row `r` and column `d` this is the entry
  `x[r,d]` times `1 / max (√(Σ_d' x[r,d']²)) ε`: the unit row of the specification.  The first kernel also sums,
  along each row, the products of the two unit rows: the cosine of the pair.  A change of float format is the identity
  on the extended reals.
-/
import proofs.«140744_j18545668784711_2_alg».proof.Proof.Gen.KernelIdeal.Skeleton
import proofs.«140744_j18545668784711_2_alg».proof.Proof.Spec
import proofs.«140744_j18545668784711_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.HingeSpec Idealize.ShloMosaic Idealize.ShloMosaic.ValueIdx

/-! ## The operations of a normalising body, read at an index -/

/-- A square root at an index is the root of the element. -/
theorem sqrt_apply {s : Shape} {φ : FTy} (a : FVec Ideal s φ) (i : s.Idx) : sqrt a i = Ideal.sqrt (a i) := rfl

/-- The sum along a row of a 1024 × 1024 array, read at row `r`: the plain sum of the row's entries. -/
theorem rowSum_apply (y : FVec Ideal S1024x1024 .f32) (r : Fin 1024) :
    multiReduction (F := Ideal) .add [1] S1024 y 0x00000000#32 reduces_S1024x1024_S1024 (.inl rfl) rfl (ix1 r)
      = ∑ d : Fin 1024, y (ix2 r d) :=
  (Ideal.multiReduction_add_single y _ reduces_S1024x1024_S1024 _ _ (ix1 r)).trans
    (Finset.sum_congr rfl fun k _ => congrArg y (funext fun a => Fin.ext (by
      match a with
      | ⟨0, _⟩ => rfl
      | ⟨1, _⟩ => rfl)))

/-! ## The three payloads of the normalising kernels -/

/-- The scaled block of the first kernel at `(r, d)`: the entry times the reciprocal of the row's clamped norm. -/
theorem pay1_apply (x : Vec Ideal S1024x1024 .f32) (r d : Fin 1024) :
    k0_pay1 (F := Ideal) x (ix2 r d) = unit (rows x) r d := by
  unfold k0_pay1
  rw [mulf_apply, broadcastTo_a1_ab_apply, divf_apply, broadcast_apply, maximumf_apply, broadcast_apply, sqrt_apply,
    shapeCast_a_a1_apply, rowSum_apply]
  simp only [mulf_apply]
  rfl

/-- The block the first kernel stores, narrowed to the shorter format, at `(r, d)`: the unit row's entry. -/
theorem pay_unitRows (x : Vec Ideal S1024x1024 .f32) (r : Fin 1024) (d : Fin 1024) :
    k0_pay3 (F := Ideal) x (ix2 r d) = unit (rows x) r d := by
  unfold k0_pay3
  rw [truncf_apply, pay1_apply]

/-- The column the first kernel stores, at row `r`: the sum along the row of the products of the two unit rows. -/
theorem pay_cosine (x0 x1 : Vec Ideal S1024x1024 .f32) (r : Fin 1024) :
    k0_pay2 (F := Ideal) x0 x1 (ix2 r (0 : Fin 1)) = ∑ d : Fin 1024, unit (rows x0) r d * unit (rows x1) r d := by
  unfold k0_pay2
  rw [shapeCast_a_a1_apply, rowSum_apply]
  refine Finset.sum_congr rfl fun d _ => ?_
  rw [mulf_apply, pay1_apply, mulf_apply, broadcastTo_a1_ab_apply, divf_apply, broadcast_apply, maximumf_apply,
    broadcast_apply, sqrt_apply, shapeCast_a_a1_apply, rowSum_apply]
  simp only [mulf_apply]
  rfl

/-- The block the queue's kernel stores at `(r, d)`: the unit row's entry. -/
theorem pay_queueRows (x : Vec Ideal S1024x1024 .f32) (r d : Fin 1024) :
    k1_pay1 (F := Ideal) x (ix2 r d) = unit (rows x) r d := by
  unfold k1_pay1
  rw [truncf_apply, mulf_apply, broadcastTo_a1_ab_apply, divf_apply, broadcast_apply, maximumf_apply, broadcast_apply,
    sqrt_apply, shapeCast_a_a1_apply, rowSum_apply]
  simp only [mulf_apply]
  rfl

end Cert.KernelIdeal.Pay

end
-- ==== Proof.UnitArrays.lean ====
/-
  The first region's two output arrays, whole: the unit rows of `q` and the column of cosines.

  The region visits four points; point `t` reads rows `1024·t … 1024·t + 1023` of `q` and of `k` and writes the same
  rows of both outputs.  A unit row, and hence a cosine, depends only on its own row, so what point `t` writes is block
  `t` of ONE function of the whole arguments: entry `(b, d)` of the first output is the entry `d` of `q`'s unit row `b`,
  entry `(b, 0)` of the second is the cosine of the pair `b`.  Row `b` lies in the block of point `b / 1024`, every point
  writes its block back, so the blocks cover both arrays and each array ends holding its function.
-/
import proofs.«140744_j18545668784711_2_alg».proof.Proof.KernelIdeal.RegionUnit
import proofs.«140744_j18545668784711_2_alg».proof.Proof.Spec
import proofs.«140744_j18545668784711_2_alg».proof.Proof.RowLocal
import proofs.«140744_j18545668784711_2_alg».proof.Proof.PayUnit
import Idealize.ShloMosaic.Lib.Pipeline.Value
import Idealize.ShloMosaic.Lib.ValueIdx

noncomputable section

namespace Cert.KernelIdeal.Arrays

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.HingeSpec

variable (V : (c : Dev nD) → (b : Ref sig .tc) → Buf (Elt Ideal) ((c : Thread nD τ).loc b))

theorem zeros_pair : (![0, 0] : Fin 2 → Nat) = fun _ => 0 := funext fun a => by fin_cases a <;> rfl

/-- The block index of each of the four windows at point `t` is `(t, 0)`. -/
theorem pair_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of `q` at point `t` is rows `1024·t …` of `q`. -/
theorem q_block (c : Dev nD) (t : Fin cfg0.N) (r d : Fin 1024) (i : S4096x1024.Idx)
    (hi0 : (i 0).val = 1024 * t.val + r.val) (hi1 : (i 1).val = d.val) :
    (iblk0 V c 0 t : Vec Ideal S1024x1024 .f32) (ix2 r d) = (V c main_arg0 : S4096x1024.Idx → EReal) i := by
  obtain ⟨e0, e1, -⟩ := pair_index t
  unfold iblk0
  rw [View.read_apply]
  show V c main_arg0 _ = V c main_arg0 _
  congr 1
  funext a
  apply Fin.ext
  match a with
  | ⟨0, _⟩ => show win0_0.index t 0 * 1024 + 1 * r.val = (i 0).val; rw [e0, hi0]; omega
  | ⟨1, _⟩ => show win0_0.index t 1 * 1024 + 1 * d.val = (i 1).val; rw [e1, hi1]; omega

/-- The block of `k` at point `t` is rows `1024·t …` of `k`. -/
theorem k_block (c : Dev nD) (t : Fin cfg0.N) (r d : Fin 1024) (i : S4096x1024.Idx)
    (hi0 : (i 0).val = 1024 * t.val + r.val) (hi1 : (i 1).val = d.val) :
    (iblk0 V c 1 t : Vec Ideal S1024x1024 .f32) (ix2 r d) = (V c main_arg1 : S4096x1024.Idx → EReal) i := by
  obtain ⟨-, -, e0, e1, -⟩ := pair_index t
  unfold iblk0
  rw [View.read_apply]
  show V c main_arg1 _ = V c main_arg1 _
  congr 1
  funext a
  apply Fin.ext
  match a with
  | ⟨0, _⟩ => show win0_1.index t 0 * 1024 + 1 * r.val = (i 0).val; rw [e0, hi0]; omega
  | ⟨1, _⟩ => show win0_1.index t 1 * 1024 + 1 * d.val = (i 1).val; rw [e1, hi1]; omega

/-! ## The unit rows of `q`, whole -/

/-- Entry `(b, d)` is the entry of `q`'s unit row `b`. -/
def qUnit (A : S4096x1024.Idx → EReal) : S4096x1024.Idx → EReal :=
  fun i => unit (rows A) (i 0) (i 1)

/-- The unit rows of a block of 1024 rows of a matrix are that block of the matrix's unit rows. -/
theorem block_qUnit (x : Vec Ideal S1024x1024 .f32) (A : S4096x1024.Idx → EReal) (T : Nat)
    (hx : ∀ (r d : Fin 1024) (i : S4096x1024.Idx), (i 0).val = 1024 * T + r.val → (i 1).val = d.val → x (ix2 r d) = A i)
    (r d : Fin 1024) (i : S4096x1024.Idx) (hi0 : (i 0).val = 1024 * T + r.val) (hi1 : (i 1).val = d.val) :
    k0_pay3 (F := Ideal) x (ix2 r d) = qUnit A i := by
  rw [Cert.KernelIdeal.Pay.pay_unitRows]
  unfold qUnit
  have hd : (i 1 : Fin 1024) = d := Fin.ext hi1
  rw [hd]
  exact Cert.RefSide.unit_congr _ _ _ _ (fun d' => hx r d' (ix2 _ d') hi0 rfl) d

/-- The same, at a block index given whole. -/
theorem block_qUnit_at (x : Vec Ideal S1024x1024 .f32) (A : S4096x1024.Idx → EReal) (T : Nat)
    (hx : ∀ (r d : Fin 1024) (i : S4096x1024.Idx), (i 0).val = 1024 * T + r.val → (i 1).val = d.val → x (ix2 r d) = A i)
    (y : S1024x1024.Idx) (i : S4096x1024.Idx) (hi0 : (i 0).val = 1024 * T + (y 0).val) (hi1 : (i 1).val = (y 1).val) :
    k0_pay3 (F := Ideal) x y = qUnit A i := by
  obtain ⟨r, d, rfl⟩ : ∃ (r d : Fin 1024), y = ix2 r d := ⟨y 0, y 1, eq_ix2 y⟩
  exact block_qUnit x A T hx r d i hi0 hi1

/-- What point `t` writes back to the first output is block `t` of `q`'s unit rows. -/
theorem qUnit_flushed (c : Dev nD) (t : Fin cfg0.N) :
    (dat0 (F := Ideal) V c).flushed 2 t = ((cfg0.win 2).blk t).view.read (Elt Ideal) (qUnit (V c main_arg0)) := by
  show (cfg0.win 2).cut (grid0.coords t) ((dat0 V c).after 2 t) = _
  rw [after0_2]
  unfold unitRows0
  rw [View.canon_unit_zero zeros_pair]
  simp only [View.ld_unit_zero (S := S1024x1024) zeros_pair]
  obtain ⟨-, -, -, -, e2, e3, -⟩ := pair_index t
  funext j
  show k0_pay3 (F := Ideal) (iblk0 V c 0 t) j = qUnit (V c main_arg0) (((cfg0.win 2).blk t).view.emb j)
  refine block_qUnit_at (iblk0 V c 0 t) (V c main_arg0) t.val (fun r d i h0 h1 => q_block V c t r d i h0 h1) j _ ?_ ?_
  · show win0_2.index t 0 * 1024 + 1 * (j 0).val = 1024 * t.val + (j 0).val
    rw [e2]; omega
  · show win0_2.index t 1 * 1024 + 1 * (j 1).val = (j 1).val
    rw [e3]; omega

/-- An index of the array is in point `t`'s block iff each coordinate is in the block's range on its axis. -/
theorem qUnit_mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_0).slice (win0_2.rect t)).set ↔ _
  rw [View.set_slice_whole, Rect.mem_set_unit]
  exact Iff.rfl

/-- Row `b` is in the block of point `b / 1024`. -/
theorem qUnit_cover (i : S4096x1024.Idx) :
    ∃ t : Fin cfg0.N, (cfg0.win 2).flush t = true ∧ i ∈ ((cfg0.win 2).blk t).view.set := by
  have h0 : (i 0).val < 4096 := idx2_lt0 i
  have h1 : (i 1).val < 1024 := idx2_lt1 i
  have hN : grid0.N = 4 := N_0
  refine ⟨⟨(i 0).val / 1024, by show (i 0).val / 1024 < grid0.N; omega⟩, flush0_2 _, ?_⟩
  rw [qUnit_mem_blk]
  obtain ⟨-, -, -, -, e2, e3, -⟩ := pair_index ⟨(i 0).val / 1024, by show (i 0).val / 1024 < grid0.N; omega⟩
  intro a
  match a with
  | ⟨0, _⟩ =>
    show win0_2.index _ 0 * 1024 ≤ (i 0).val ∧ (i 0).val < win0_2.index _ 0 * 1024 + 1024
    rw [e2]; show (i 0).val / 1024 * 1024 ≤ (i 0).val ∧ (i 0).val < (i 0).val / 1024 * 1024 + 1024; omega
  | ⟨1, _⟩ =>
    show win0_2.index _ 1 * 1024 ≤ (i 1).val ∧ (i 1).val < win0_2.index _ 1 * 1024 + 1024
    rw [e3]; omega

/-- (A) The first output array after the region is `q`'s unit rows. -/
theorem qUnit_final (c : Dev nD) : (dat0 (F := Ideal) V c).arrAt 2 cfg0.N = qUnit (V c main_arg0) :=
  (dat0 (F := Ideal) V c).arrAt_eq_of_cover 2 (qUnit (V c main_arg0)) (fun t _ => qUnit_flushed V c t) qUnit_cover

/-! ## The column of cosines, whole -/

/-- Entry `(b, 0)` is the cosine of the pair `b`. -/
def posCol (A0 A1 : S4096x1024.Idx → EReal) : S4096x1.Idx → EReal :=
  fun i => pos (rows A0) (rows A1) (i 0)

/-- The cosines of a block of 1024 pairs of rows are that block of the column of cosines. -/
theorem block_posCol (x0 x1 : Vec Ideal S1024x1024 .f32) (A0 A1 : S4096x1024.Idx → EReal) (T : Nat)
    (hx0 : ∀ (r d : Fin 1024) (i : S4096x1024.Idx), (i 0).val = 1024 * T + r.val → (i 1).val = d.val → x0 (ix2 r d) = A0 i)
    (hx1 : ∀ (r d : Fin 1024) (i : S4096x1024.Idx), (i 0).val = 1024 * T + r.val → (i 1).val = d.val → x1 (ix2 r d) = A1 i)
    (r : Fin 1024) (z : Fin 1) (i : S4096x1.Idx) (hi0 : (i 0).val = 1024 * T + r.val) :
    k0_pay2 (F := Ideal) x0 x1 (ix2 r z) = posCol A0 A1 i := by
  obtain rfl : z = 0 := Subsingleton.elim _ _
  rw [Cert.KernelIdeal.Pay.pay_cosine]
  unfold posCol pos
  refine Finset.sum_congr rfl fun d _ => ?_
  rw [Cert.RefSide.unit_congr (rows x0) (rows A0) r (i 0) (fun d' => hx0 r d' (ix2 _ d') hi0 rfl) d,
    Cert.RefSide.unit_congr (rows x1) (rows A1) r (i 0) (fun d' => hx1 r d' (ix2 _ d') hi0 rfl) d]

/-- The same, at a block index given whole. -/
theorem block_posCol_at (x0 x1 : Vec Ideal S1024x1024 .f32) (A0 A1 : S4096x1024.Idx → EReal) (T : Nat)
    (hx0 : ∀ (r d : Fin 1024) (i : S4096x1024.Idx), (i 0).val = 1024 * T + r.val → (i 1).val = d.val → x0 (ix2 r d) = A0 i)
    (hx1 : ∀ (r d : Fin 1024) (i : S4096x1024.Idx), (i 0).val = 1024 * T + r.val → (i 1).val = d.val → x1 (ix2 r d) = A1 i)
    (y : S1024x1.Idx) (i : S4096x1.Idx) (hi0 : (i 0).val = 1024 * T + (y 0).val) :
    k0_pay2 (F := Ideal) x0 x1 y = posCol A0 A1 i := by
  obtain ⟨r, z, rfl⟩ : ∃ (r : Fin 1024) (z : Fin 1), y = ix2 r z := ⟨y 0, y 1, eq_ix2 y⟩
  exact block_posCol x0 x1 A0 A1 T hx0 hx1 r z i hi0

/-- What point `t` writes back to the second output is block `t` of the column of cosines. -/
theorem posCol_flushed (c : Dev nD) (t : Fin cfg0.N) :
    (dat0 (F := Ideal) V c).flushed 3 t = ((cfg0.win 3).blk t).view.read (Elt Ideal) (posCol (V c main_arg0) (V c main_arg1)) := by
  show (cfg0.win 3).cut (grid0.coords t) ((dat0 V c).after 3 t) = _
  rw [after0_3]
  unfold cosines0
  rw [View.canon_unit_zero zeros_pair]
  simp only [View.ld_unit_zero (S := S1024x1024) zeros_pair]
  obtain ⟨-, -, -, -, -, -, e2, e3⟩ := pair_index t
  funext j
  show k0_pay2 (F := Ideal) (iblk0 V c 0 t) (iblk0 V c 1 t) j = posCol (V c main_arg0) (V c main_arg1) (((cfg0.win 3).blk t).view.emb j)
  refine block_posCol_at (iblk0 V c 0 t) (iblk0 V c 1 t) (V c main_arg0) (V c main_arg1) t.val
    (fun r d i h0 h1 => q_block V c t r d i h0 h1) (fun r d i h0 h1 => k_block V c t r d i h0 h1) j _ ?_
  show win0_3.index t 0 * 1024 + 1 * (j 0).val = 1024 * t.val + (j 0).val
  rw [e2]; omega

/-- An index of the column is in point `t`'s block iff each coordinate is in the block's range on its axis. -/
theorem posCol_mem_blk (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

/-- Row `b` of the column is in the block of point `b / 1024`. -/
theorem posCol_cover (i : S4096x1.Idx) :
    ∃ t : Fin cfg0.N, (cfg0.win 3).flush t = true ∧ i ∈ ((cfg0.win 3).blk t).view.set := by
  have h0 : (i 0).val < 4096 := idx2_lt0 i
  have h1 : (i 1).val < 1 := idx2_lt1 i
  have hN : grid0.N = 4 := N_0
  refine ⟨⟨(i 0).val / 1024, by show (i 0).val / 1024 < grid0.N; omega⟩, flush0_3 _, ?_⟩
  rw [posCol_mem_blk]
  obtain ⟨-, -, -, -, -, -, e2, e3⟩ := pair_index ⟨(i 0).val / 1024, by show (i 0).val / 1024 < grid0.N; omega⟩
  intro a
  match a with
  | ⟨0, _⟩ =>
    show win0_3.index _ 0 * 1024 ≤ (i 0).val ∧ (i 0).val < win0_3.index _ 0 * 1024 + 1024
    rw [e2]; show (i 0).val / 1024 * 1024 ≤ (i 0).val ∧ (i 0).val < (i 0).val / 1024 * 1024 + 1024; omega
  | ⟨1, _⟩ =>
    show win0_3.index _ 1 * 1 ≤ (i 1).val ∧ (i 1).val < win0_3.index _ 1 * 1 + 1
    rw [e3]; omega

/-- (B) The second output array after the region is the column of cosines. -/
theorem posCol_final (c : Dev nD) : (dat0 (F := Ideal) V c).arrAt 3 cfg0.N = posCol (V c main_arg0) (V c main_arg1) :=
  (dat0 (F := Ideal) V c).arrAt_eq_of_cover 3 (posCol (V c main_arg0) (V c main_arg1)) (fun t _ => posCol_flushed V c t) posCol_cover

end Cert.KernelIdeal.Arrays

end
-- ==== Proof.QueueArrays.lean ====
/-
  The second region's output array, whole: the unit rows of the queue.

  The region visits eight points; point `t` reads rows `1024·t … 1024·t + 1023` of the queue and writes the same rows
  of the output.  A unit row depends only on its own row, so what point `t` writes is block `t` of ONE function of the
  whole queue: entry `(n, d)` is the entry `d` of the queue's unit row `n`.  Row `n` lies in the block of point
  `n / 1024`, every point writes its block back, so the blocks cover the array and it ends holding that function.
-/
import proofs.«140744_j18545668784711_2_alg».proof.Proof.KernelIdeal.RegionQueue
import proofs.«140744_j18545668784711_2_alg».proof.Proof.Spec
import proofs.«140744_j18545668784711_2_alg».proof.Proof.RowLocal
import proofs.«140744_j18545668784711_2_alg».proof.Proof.PayUnit
import Idealize.ShloMosaic.Lib.Pipeline.Value
import Idealize.ShloMosaic.Lib.ValueIdx

noncomputable section

namespace Cert.KernelIdeal.Arrays

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.HingeSpec

variable (V : (c : Dev nD) → (b : Ref sig .tc) → Buf (Elt Ideal) ((c : Thread nD τ).loc b))

theorem zeros_queue : (![0, 0] : Fin 2 → Nat) = fun _ => 0 := funext fun a => by fin_cases a <;> rfl

/-- The block index of the queue's windows at point `t` is `(t, 0)`. -/
theorem queue_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The queue's block at point `t` is rows `1024·t …` of the queue. -/
theorem queue_block (c : Dev nD) (t : Fin cfg1.N) (r d : Fin 1024) (i : S8192x1024.Idx)
    (hi0 : (i 0).val = 1024 * t.val + r.val) (hi1 : (i 1).val = d.val) :
    (iblk1 V c 0 t : Vec Ideal S1024x1024 .f32) (ix2 r d) = (V c main_arg2 : S8192x1024.Idx → EReal) i := by
  obtain ⟨e0, e1, -, -⟩ := queue_index t
  unfold iblk1
  rw [View.read_apply]
  show V c main_arg2 _ = V c main_arg2 _
  congr 1
  funext a
  apply Fin.ext
  match a with
  | ⟨0, _⟩ => show win1_0.index t 0 * 1024 + 1 * r.val = (i 0).val; rw [e0, hi0]; omega
  | ⟨1, _⟩ => show win1_0.index t 1 * 1024 + 1 * d.val = (i 1).val; rw [e1, hi1]; omega

/-- The queue's unit rows, whole: entry `(n, d)` is the entry of the queue's unit row `n`. -/
def queueUnit (A : S8192x1024.Idx → EReal) : S8192x1024.Idx → EReal :=
  fun i => unit (rows A) (i 0) (i 1)

/-- The unit rows of a block of 1024 rows of a matrix are that block of the matrix's unit rows. -/
theorem block_unit (x : Vec Ideal S1024x1024 .f32) (A : S8192x1024.Idx → EReal) (T : Nat)
    (hx : ∀ (r d : Fin 1024) (i : S8192x1024.Idx), (i 0).val = 1024 * T + r.val → (i 1).val = d.val → x (ix2 r d) = A i)
    (r d : Fin 1024) (i : S8192x1024.Idx) (hi0 : (i 0).val = 1024 * T + r.val) (hi1 : (i 1).val = d.val) :
    k1_pay1 (F := Ideal) x (ix2 r d) = queueUnit A i := by
  rw [Cert.KernelIdeal.Pay.pay_queueRows]
  unfold queueUnit
  have hd : (i 1 : Fin 1024) = d := Fin.ext hi1
  rw [hd]
  exact Cert.RefSide.unit_congr _ _ _ _ (fun d' => hx r d' (ix2 _ d') hi0 rfl) d

/-- The same, at a block index given whole. -/
theorem block_unit_at (x : Vec Ideal S1024x1024 .f32) (A : S8192x1024.Idx → EReal) (T : Nat)
    (hx : ∀ (r d : Fin 1024) (i : S8192x1024.Idx), (i 0).val = 1024 * T + r.val → (i 1).val = d.val → x (ix2 r d) = A i)
    (y : S1024x1024.Idx) (i : S8192x1024.Idx) (hi0 : (i 0).val = 1024 * T + (y 0).val) (hi1 : (i 1).val = (y 1).val) :
    k1_pay1 (F := Ideal) x y = queueUnit A i := by
  obtain ⟨r, d, rfl⟩ : ∃ (r d : Fin 1024), y = ix2 r d := ⟨y 0, y 1, eq_ix2 y⟩
  exact block_unit x A T hx r d i hi0 hi1

/-- What point `t` writes back is block `t` of the queue's unit rows. -/
theorem queue_flushed (c : Dev nD) (t : Fin cfg1.N) :
    (dat1 (F := Ideal) V c).flushed 1 t = ((cfg1.win 1).blk t).view.read (Elt Ideal) (queueUnit (V c main_arg2)) := by
  show (cfg1.win 1).cut (grid1.coords t) ((dat1 V c).after 1 t) = _
  rw [after1_1]
  unfold unitRows1
  rw [View.canon_unit_zero zeros_queue]
  simp only [View.ld_unit_zero (S := S1024x1024) zeros_queue]
  obtain ⟨-, -, e2, e3⟩ := queue_index t
  funext j
  show k1_pay1 (F := Ideal) (iblk1 V c 0 t) j = queueUnit (V c main_arg2) (((cfg1.win 1).blk t).view.emb j)
  refine block_unit_at (iblk1 V c 0 t) (V c main_arg2) t.val (fun r d i h0 h1 => queue_block V c t r d i h0 h1) j _ ?_ ?_
  · show win1_1.index t 0 * 1024 + 1 * (j 0).val = 1024 * t.val + (j 0).val
    rw [e2]; omega
  · show win1_1.index t 1 * 1024 + 1 * (j 1).val = (j 1).val
    rw [e3]; omega

/-- An index of the array is in point `t`'s block iff each coordinate is in the block's range on its axis. -/
theorem queue_mem_blk (t : Fin cfg1.N) (i : S8192x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1).slice (win1_1.rect t)).set ↔ _
  rw [View.set_slice_whole, Rect.mem_set_unit]
  exact Iff.rfl

/-- Row `n` is in the block of point `n / 1024`. -/
theorem queue_cover (i : S8192x1024.Idx) :
    ∃ t : Fin cfg1.N, (cfg1.win 1).flush t = true ∧ i ∈ ((cfg1.win 1).blk t).view.set := by
  have h0 : (i 0).val < 8192 := idx2_lt0 i
  have h1 : (i 1).val < 1024 := idx2_lt1 i
  have hN : grid1.N = 8 := N_1
  refine ⟨⟨(i 0).val / 1024, by show (i 0).val / 1024 < grid1.N; omega⟩, flush1_1 _, ?_⟩
  rw [queue_mem_blk]
  obtain ⟨-, -, e2, e3⟩ := queue_index ⟨(i 0).val / 1024, by show (i 0).val / 1024 < grid1.N; omega⟩
  intro a
  match a with
  | ⟨0, _⟩ =>
    show win1_1.index _ 0 * 1024 ≤ (i 0).val ∧ (i 0).val < win1_1.index _ 0 * 1024 + 1024
    rw [e2]; show (i 0).val / 1024 * 1024 ≤ (i 0).val ∧ (i 0).val < (i 0).val / 1024 * 1024 + 1024; omega
  | ⟨1, _⟩ =>
    show win1_1.index _ 1 * 1024 ≤ (i 1).val ∧ (i 1).val < win1_1.index _ 1 * 1024 + 1024
    rw [e3]; omega

/-- (C) The queue's output array after the region is the queue's unit rows. -/
theorem queue_final (c : Dev nD) : (dat1 (F := Ideal) V c).arrAt 1 cfg1.N = queueUnit (V c main_arg2) :=
  (dat1 (F := Ideal) V c).arrAt_eq_of_cover 1 (queueUnit (V c main_arg2)) (fun t _ => queue_flushed V c t) queue_cover

end Cert.KernelIdeal.Arrays

end
-- ==== Proof.KernelIdeal.ValueTotal.lean ====
/-
  The program's result at the ideal instance.  The host operations take entry (b, 0, 0) of each of the two result tiles
  and add the two to zero.  The third region's array holds, in every entry of tile `b`, zero plus the sixteen tile sums
  of row tile `b`; it was entered at the unit rows of `q`, the cosines, and the unit rows of the queue, which the first two
  regions left.  So the result is the sum over the two row tiles and the sixteen column tiles of the specification's
  tiles: the loss `total` of the three argument matrices.
-/
import proofs.«140744_j18545668784711_2_alg».proof.Proof.Gen.KernelIdeal.Launch
import proofs.«140744_j18545668784711_2_alg».proof.Proof.Gen.KernelIdeal.Skeleton
import proofs.«140744_j18545668784711_2_alg».proof.Proof.Gen.KernelIdeal.Points
import proofs.«140744_j18545668784711_2_alg».proof.Proof.KernelIdeal.Frames
import proofs.«140744_j18545668784711_2_alg».proof.Proof.KernelIdeal.ValueHinge
import proofs.«140744_j18545668784711_2_alg».proof.Proof.UnitArrays
import proofs.«140744_j18545668784711_2_alg».proof.Proof.QueueArrays
import Idealize.ShloMosaic.Lib.StableHlo.Run
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.HingeSpec Idealize.ShloMosaic.ValueIdx Idealize.ShloMosaic.StableHlo Cert.KernelIdeal.Arrays

variable (m : (ℓ : Loc nD τ sig) → Buf (Elt Ideal) ℓ) (ρ : Dev nD → PrngReg)

/-- The result buffer after the host operations: the sum, from zero, of the sliced and flattened result tiles. -/
theorem tail_eq (c : Dev nD) : W4 (F := Ideal) m c (Proc.devRef .tc main_v5)
    = Host.reduceAdd (F := Ideal) (shapeCast S2 (extractStridedSlice S2x1x1 ![0, 0, 0] (W3 m c (Proc.devRef .tc main_v2)) slices_S2x8x128_S2x1x1_0_0_0) shapeCasts_S2x1x1_S2)
        (constant S_ .f32 0x00000000#32) reducesTo_S2_S_d0 h_S_ := by
  show StableHlo.after hostOps3 _ (Proc.devRef .tc main_v5) = _
  after_results
  rfl

/-- That sum, entry by entry of the operand: zero plus entry (b, 0, 0) of each tile. -/
theorem tail_sum (G : S2x8x128.Idx → EReal) (j : S_.Idx) :
    Host.reduceAdd (F := Ideal) (shapeCast S2 (extractStridedSlice S2x1x1 ![0, 0, 0] G slices_S2x8x128_S2x1x1_0_0_0) shapeCasts_S2x1x1_S2)
        (constant S_ .f32 0x00000000#32) reducesTo_S2_S_d0 h_S_ j
      = 0 + ∑ b : Fin 2, G (ix3 b (0 : Fin 8) (0 : Fin 128)) := by
  simp only [Host.reduceAdd, Ideal.hostReduceAdd_def]
  rw [Ideal.hostReduceAdd_total reducesTo_S2_S_d0 (fun b => b.elim0) _ _ j]
  refine congrArg₂ (· + ·) Ideal.ofBits_zero_f32 ?_
  refine Fintype.sum_equiv (⟨fun i => i 0, fun b => ix1 b, fun i => (eq_ix1 i).symm, fun b => rfl⟩ : S2.Idx ≃ Fin 2) _ _ (fun i => ?_)
  obtain ⟨b, rfl⟩ : ∃ b : Fin 2, i = ix1 b := ⟨i 0, eq_ix1 i⟩
  show _ = G (ix3 b (0 : Fin 8) (0 : Fin 128))
  rw [shapeCast_apply _ _ (ix1 b) (ix3 b (0 : Fin 1) (0 : Fin 1)) (by rfl)]
  exact extractStridedSlice_apply _ _ _ _ (ix3 b (0 : Fin 8) (0 : Fin 128)) (fun a => by
    match a with
    | ⟨0, _⟩ => exact (Nat.zero_add _).symm
    | ⟨1, _⟩ => rfl
    | ⟨2, _⟩ => rfl)

/-- What the third region is entered at: the unit rows of `q`, -/
theorem enter_q (c : Dev nD) : V2 (F := Ideal) m c main_v0_0 = qUnit (m ((c : Thread nD τ).loc main_arg0)) :=
  (W2_of_ne m c main_v0_0 (by decide)).trans ((W1_arr m c 2).trans (qUnit_final (V0 m) c))
/-- the cosines, -/
theorem enter_p (c : Dev nD) : V2 (F := Ideal) m c main_v0_1 = posCol (m ((c : Thread nD τ).loc main_arg0)) (m ((c : Thread nD τ).loc main_arg1)) :=
  (W2_of_ne m c main_v0_1 (by decide)).trans ((W1_arr m c 3).trans (posCol_final (V0 m) c))
/-- and the unit rows of the queue. -/
theorem enter_c (c : Dev nD) : V2 (F := Ideal) m c main_v1 = queueUnit (m ((c : Thread nD τ).loc main_arg2)) :=
  (W2_arr m c 1).trans ((queue_final (V1 m) c).trans (congrArg queueUnit (W1_of_ne m c main_arg2 (by decide))))

/-- THE RESULT: the loss of the three argument matrices. -/
theorem result_total (c : Dev nD) :
    W4 (F := Ideal) m c (Proc.devRef .tc main_v5)
      = fun _ => total (rows (m ((c : Thread nD τ).loc main_arg0))) (rows (m ((c : Thread nD τ).loc main_arg1))) (rows (m ((c : Thread nD τ).loc main_arg2))) := by
  have hG : W3 m c (Proc.devRef .tc main_v2) = tilesArr (V2 m) c := (W3_arr m c 3).trans (tiles_final (V2 m) c)
  rw [tail_eq, hG]
  funext j
  rw [tail_sum]
  unfold total tilesArr
  rw [zero_add]
  refine Finset.sum_congr rfl fun bt _ => ?_
  rw [show (zero : EReal) = 0 from Ideal.ofBits_zero_f32, zero_add, Finset.sum_range]
  refine Finset.sum_congr rfl fun nt _ => ?_
  exact pointSum_eq (V2 m) c _ _ _
    (fun R d => by rw [enter_q]; rfl) (fun R => by rw [enter_p]; rfl) (fun n d => by rw [enter_c]; rfl) bt nt

/-- The run with its result named: every weakly fair execution ends with the result at the loss and the arguments unchanged. -/
theorem run_total : θ_run defs (onTc (τ := τ) (main (F := Ideal))) ⟨m, fun _ => 0, ρ⟩ (fun r => ∀ c : Dev nD,
      r.2.mem ((c.tc : Thread nD τ).loc main_v5)
        = (fun _ => total (rows (m ((c.tc : Thread nD τ).loc main_arg0))) (rows (m ((c.tc : Thread nD τ).loc main_arg1))) (rows (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_total m c), (h c).2⟩) (run_value m ρ)

end Cert.KernelIdeal.Hand

end
-- ==== Proof.UnitRows.lean ====
/-
  Rows of real numbers scaled to unit length.

  The four float literals: `1.0` and `0.0` are the extended reals 1 and 0, and the norm clamp `ε` is a positive real
  (its exact value is never needed).  For a row of real numbers the sum of squares is a nonnegative real, its root a
  real, and the maximum of that root with `ε` a positive real `n`.  Dividing by a nonzero real `n` is, on every extended
  real, multiplying by the real `1/n`; so "entry times the reciprocal of the clamped norm" and "entry divided by the
  clamped norm" are the same number.
-/
import proofs.«140744_j18545668784711_2_alg».proof.Proof.Spec
import Idealize.ShloMosaic.Lib.IdealHost

noncomputable section

namespace Cert.RefSide

open Idealize.ShloMosaic Cert.HingeSpec

/-- The float `1.0` is the extended real 1. -/
theorem one_eq : HingeSpec.one = 1 := Ideal.ofBits_one_f32

/-- The float `0.0` is the extended real 0. -/
theorem zero_eq : HingeSpec.zero = 0 := Ideal.ofBits_zero_f32

/-- The norm clamp is a positive real. -/
theorem eps_pos : ∃ e : ℝ, 0 < e ∧ eps = (e : EReal) := by
  unfold eps
  simp [Ideal.ofBits, Ideal.ieee, -EReal.coe_mul]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The clamped norm of a row of reals is a positive real. -/
theorem nrm_pos {R : Nat} (x : Fin R → Fin 1024 → EReal) (r : Fin R) (hx : ∀ d, ∃ a : ℝ, x r d = (a : EReal)) :
    ∃ n : ℝ, 0 < n ∧ nrm x r = (n : EReal) := by
  choose f hf using hx
  obtain ⟨e, he, hee⟩ := eps_pos
  have hs : (∑ d : Fin 1024, x r d * x r d) = ((∑ d : Fin 1024, f d * f d : ℝ) : EReal) := by
    rw [coe_sum]
    exact Finset.sum_congr rfl fun d _ => by rw [hf d, EReal.coe_mul]
  have h0 : (0 : ℝ) ≤ ∑ d : Fin 1024, f d * f d := Finset.sum_nonneg fun d _ => mul_self_nonneg _
  refine ⟨max (Real.sqrt (∑ d : Fin 1024, f d * f d)) e, lt_max_of_lt_right he, ?_⟩
  unfold nrm
  rw [hs, Ideal.sqrt_coe, if_neg (not_lt.mpr h0), hee]
  exact (EReal.coe_strictMono.monotone.map_max).symm

/-- Multiplying by the reciprocal of a nonzero real is dividing by it, on every extended real. -/
theorem mul_recip (x : EReal) {n : ℝ} (hn : n ≠ 0) : x * Ideal.div HingeSpec.one (n : EReal) = Ideal.div x (n : EReal) := by
  rw [Ideal.div_coe hn, Ideal.div_coe hn, one_eq, one_mul]

/-- An entry of a unit row of reals is the entry divided by the clamped norm. -/
theorem unit_eq_div {R : Nat} (x : Fin R → Fin 1024 → EReal) (r : Fin R) (hx : ∀ d, ∃ a : ℝ, x r d = (a : EReal))
    (d : Fin 1024) : Ideal.div (x r d) (nrm x r) = unit x r d := by
  obtain ⟨n, hn, hnn⟩ := nrm_pos x r hx
  unfold unit
  rw [hnn, mul_recip _ hn.ne']

end Cert.RefSide

end
-- ==== Proof.Regroup.lean ====
/-
  Regrouping the sum over all pairs (row, column) of a 4096 × 8192 array into tiles.

  A row index below 4096 is, in exactly one way, `bt · 2048 + r` with `bt < 2` and `r < 2048`; a column index below
  8192 is, in exactly one way, `nt · 512 + l` with `nt < 16` and `l < 512`.  Addition in a commutative monoid may be
  regrouped and reordered freely, so the sum over all pairs is the sum over row tiles, then column tiles, then the rows
  of the tile, then the columns of the tile.  No finiteness is needed: this holds in every commutative monoid.
-/
import proofs.«140744_j18545668784711_2_alg».proof.Proof.Spec

namespace Cert.RefSide

open Cert.HingeSpec
open scoped BigOperators

/-- A row index is a row tile together with a row inside the tile. -/
def rowEquiv : Fin 2 × Fin 2048 ≃ Fin 4096 where
  toFun p := rowOf p.1 p.2
  invFun b := (⟨b.val / 2048, by have := b.isLt; omega⟩, ⟨b.val % 2048, Nat.mod_lt _ (by norm_num)⟩)
  left_inv p := by
    obtain ⟨bt, r⟩ := p
    have h1 := bt.isLt
    have h2 := r.isLt
    refine Prod.ext (Fin.ext ?_) (Fin.ext ?_)
    · show (bt.val * 2048 + r.val) / 2048 = bt.val
      omega
    · show (bt.val * 2048 + r.val) % 2048 = r.val
      omega
  right_inv b := Fin.ext (by
    show b.val / 2048 * 2048 + b.val % 2048 = b.val
    omega)

/-- A column index is a column tile together with a column inside the tile. -/
def colEquiv : Fin 16 × Fin 512 ≃ Fin 8192 where
  toFun p := colOf p.1 p.2
  invFun n := (⟨n.val / 512, by have := n.isLt; omega⟩, ⟨n.val % 512, Nat.mod_lt _ (by norm_num)⟩)
  left_inv p := by
    obtain ⟨nt, l⟩ := p
    have h1 := nt.isLt
    have h2 := l.isLt
    refine Prod.ext (Fin.ext ?_) (Fin.ext ?_)
    · show (nt.val * 512 + l.val) / 512 = nt.val
      omega
    · show (nt.val * 512 + l.val) % 512 = l.val
      omega
  right_inv n := Fin.ext (by
    show n.val / 512 * 512 + n.val % 512 = n.val
    omega)

/-- A sum over the rows is the sum over the row tiles of the sums over a tile's rows. -/
theorem sum_rows {M : Type*} [AddCommMonoid M] (g : Fin 4096 → M) :
    ∑ b, g b = ∑ bt : Fin 2, ∑ r : Fin 2048, g (rowOf bt r) := by
  rw [← Equiv.sum_comp rowEquiv g, Fintype.sum_prod_type]
  rfl

/-- A sum over the columns is the sum over the column tiles of the sums over a tile's columns. -/
theorem sum_cols {M : Type*} [AddCommMonoid M] (g : Fin 8192 → M) :
    ∑ n, g n = ∑ nt : Fin 16, ∑ l : Fin 512, g (colOf nt l) := by
  rw [← Equiv.sum_comp colEquiv g, Fintype.sum_prod_type]
  rfl

/-- The sum over all pairs (row, column), tile by tile. -/
theorem sum_tiles {M : Type*} [AddCommMonoid M] (f : Fin 4096 → Fin 8192 → M) :
    ∑ b, ∑ n, f b n = ∑ bt : Fin 2, ∑ nt : Fin 16, ∑ r : Fin 2048, ∑ l : Fin 512, f (rowOf bt r) (colOf nt l) :=
  calc ∑ b, ∑ n, f b n = ∑ bt : Fin 2, ∑ r : Fin 2048, ∑ n, f (rowOf bt r) n := sum_rows _
    _ = ∑ bt : Fin 2, ∑ r : Fin 2048, ∑ nt : Fin 16, ∑ l : Fin 512, f (rowOf bt r) (colOf nt l) :=
        Finset.sum_congr rfl fun bt _ => Finset.sum_congr rfl fun r _ => sum_cols _
    _ = ∑ bt : Fin 2, ∑ nt : Fin 16, ∑ r : Fin 2048, ∑ l : Fin 512, f (rowOf bt r) (colOf nt l) :=
        Finset.sum_congr rfl fun bt _ => Finset.sum_comm

end Cert.RefSide
-- ==== Proof.RefValue.lean ====
/-
  The reference's result, for matrices of real numbers, is the loss of the specification.

  The reference computes, stage by stage: the squares, their row sums (from the initial value 0), the roots, the
  maximum with `ε` (the clamped norms, one per row), the quotient of every entry by its row's clamped norm (the unit
  rows), the row sums of the products `q̂·k̂` (the cosines `pos`), the matrix product `q̂·ĉᵀ` (the cosines `neg`),
  `δ − pos` broadcast along the columns plus `neg`, its maximum with 0 (the hinge terms), and the sum of all of them from
  the initial value 0.  Each stage is read at an index through the generated reading lemmas; the only laws used are
  `0 + s = s`, "dividing by a nonzero real is multiplying by its reciprocal" (which needs the rows real, so that the
  clamped norm is a positive real) and the regrouping of the final sum into tiles.
-/
import proofs.«140744_j18545668784711_2_alg».proof.Proof.Gen.ReferenceIdeal.Read
import proofs.«140744_j18545668784711_2_alg».proof.Proof.Spec
import proofs.«140744_j18545668784711_2_alg».proof.Proof.UnitRows
import proofs.«140744_j18545668784711_2_alg».proof.Proof.Regroup

noncomputable section

namespace Cert.RefSide

open Cert.ReferenceIdeal Cert.ReferenceIdeal.Gen Cert.ReferenceIdeal.Read Idealize.ShloMosaic Idealize.ShloMosaic.ValueIdx
  Cert.HingeSpec

/-! ## Index equations: the composed index functions of the reference's stages, at coordinates -/

theorem idx_sq_q (r : Fin 4096) (z : Fin 1) (k : Fin 1024) :
    idx_main_call0_v1 (idx_main_call0_v2 (ix2 r z)) k = ix2 r k :=
  funext fun a => by match a with | ⟨0, _⟩ => rfl | ⟨1, _⟩ => rfl
theorem idx_sq_k (r : Fin 4096) (z : Fin 1) (k : Fin 1024) :
    idx_main_call1_v1 (idx_main_call1_v2 (ix2 r z)) k = ix2 r k :=
  funext fun a => by match a with | ⟨0, _⟩ => rfl | ⟨1, _⟩ => rfl
theorem idx_sq_c (r : Fin 8192) (z : Fin 1) (k : Fin 1024) :
    idx_main_call2_v1 (idx_main_call2_v2 (ix2 r z)) k = ix2 r k :=
  funext fun a => by match a with | ⟨0, _⟩ => rfl | ⟨1, _⟩ => rfl
theorem idx_col_q (r : Fin 4096) (d : Fin 1024) : idx_main_v3 (ix2 r d) = ix2 r (0 : Fin 1) :=
  funext fun a => by match a with | ⟨0, _⟩ => rfl | ⟨1, _⟩ => rfl
theorem idx_col_k (r : Fin 4096) (d : Fin 1024) : idx_main_v8 (ix2 r d) = ix2 r (0 : Fin 1) :=
  funext fun a => by match a with | ⟨0, _⟩ => rfl | ⟨1, _⟩ => rfl
theorem idx_col_c (r : Fin 8192) (d : Fin 1024) : idx_main_v13 (ix2 r d) = ix2 r (0 : Fin 1) :=
  funext fun a => by match a with | ⟨0, _⟩ => rfl | ⟨1, _⟩ => rfl
theorem idx_pos (b : Fin 4096) (k : Fin 1024) : idx_main_v16 (ix1 b) k = ix2 b k :=
  funext fun a => by match a with | ⟨0, _⟩ => rfl | ⟨1, _⟩ => rfl
theorem idx_neg_l (b : Fin 4096) (n : Fin 8192) (k : Fin 1024) : lidx_main_v17 (ix2 b n) k = ix2 b k :=
  funext fun a => by match a with | ⟨0, _⟩ => rfl | ⟨1, _⟩ => rfl
theorem idx_neg_r (b : Fin 4096) (n : Fin 8192) (k : Fin 1024) : ridx_main_v17 (ix2 b n) k = ix2 n k :=
  funext fun a => by match a with | ⟨0, _⟩ => rfl | ⟨1, _⟩ => rfl
theorem idx_margin (b : Fin 4096) (n : Fin 8192) : idx_main_v18 (idx_main_v21 (ix2 b n)) = ix1 b :=
  funext fun a => by match a with | ⟨0, _⟩ => rfl

/-! ## The clamped norms -/

theorem norm_q (x : S4096x1024.Idx → EReal) (r : Fin 4096) (z : Fin 1) :
    val_main_v2 (F := Ideal) x (ix2 r z) = nrm (rows x) r := by
  rw [val_main_v2_apply, val_main_v0_apply, val_main_call0_v2_apply, val_main_call0_v1_apply, val_main_v1_apply,
    val_main_cst_apply, val_main_call0_cst_apply]
  simp only [val_main_call0_v0_apply, Ideal.maximumf_def, Ideal.hostUnary_sqrt_def, Ideal.mulf_def, Ideal.ofBits_def,
    Ideal.ofBits_zero_f32, zero_add, idx_sq_q]
  rfl

theorem norm_k (x : S4096x1024.Idx → EReal) (r : Fin 4096) (z : Fin 1) :
    val_main_v7 (F := Ideal) x (ix2 r z) = nrm (rows x) r := by
  rw [val_main_v7_apply, val_main_v5_apply, val_main_call1_v2_apply, val_main_call1_v1_apply, val_main_v6_apply,
    val_main_cst_0_apply, val_main_call1_cst_apply]
  simp only [val_main_call1_v0_apply, Ideal.maximumf_def, Ideal.hostUnary_sqrt_def, Ideal.mulf_def, Ideal.ofBits_def,
    Ideal.ofBits_zero_f32, zero_add, idx_sq_k]
  rfl

theorem norm_c (x : S8192x1024.Idx → EReal) (r : Fin 8192) (z : Fin 1) :
    val_main_v12 (F := Ideal) x (ix2 r z) = nrm (rows x) r := by
  rw [val_main_v12_apply, val_main_v10_apply, val_main_call2_v2_apply, val_main_call2_v1_apply, val_main_v11_apply,
    val_main_cst_1_apply, val_main_call2_cst_apply]
  simp only [val_main_call2_v0_apply, Ideal.maximumf_def, Ideal.hostUnary_sqrt_def, Ideal.mulf_def, Ideal.ofBits_def,
    Ideal.ofBits_zero_f32, zero_add, idx_sq_c]
  rfl

/-! ## The unit rows: for a matrix of reals, the reference's quotient is the product with the reciprocal -/

theorem unit_q (x : S4096x1024.Idx → EReal) (hx : AllReal x) (r : Fin 4096) (d : Fin 1024) :
    val_main_v4 (F := Ideal) x (ix2 r d) = unit (rows x) r d := by
  rw [val_main_v4_apply, val_main_v3_apply, idx_col_q, norm_q, Ideal.hostDivf_def]
  exact unit_eq_div (rows x) r (fun d => hx (ix2 r d)) d

theorem unit_k (x : S4096x1024.Idx → EReal) (hx : AllReal x) (r : Fin 4096) (d : Fin 1024) :
    val_main_v9 (F := Ideal) x (ix2 r d) = unit (rows x) r d := by
  rw [val_main_v9_apply, val_main_v8_apply, idx_col_k, norm_k, Ideal.hostDivf_def]
  exact unit_eq_div (rows x) r (fun d => hx (ix2 r d)) d

theorem unit_c (x : S8192x1024.Idx → EReal) (hx : AllReal x) (r : Fin 8192) (d : Fin 1024) :
    val_main_v14 (F := Ideal) x (ix2 r d) = unit (rows x) r d := by
  rw [val_main_v14_apply, val_main_v13_apply, idx_col_c, norm_c, Ideal.hostDivf_def]
  exact unit_eq_div (rows x) r (fun d => hx (ix2 r d)) d

/-! ## The two cosines, the hinge term, the loss -/

theorem pos_at (x0 x1 : S4096x1024.Idx → EReal) (h0 : AllReal x0) (h1 : AllReal x1) (b : Fin 4096) :
    val_main_v16 (F := Ideal) x0 x1 (ix1 b) = pos (rows x0) (rows x1) b := by
  rw [val_main_v16_apply, val_main_cst_2_apply, Ideal.ofBits_def, Ideal.ofBits_zero_f32, zero_add]
  refine Finset.sum_congr rfl fun k _ => ?_
  rw [val_main_v15_apply, idx_pos, unit_q x0 h0, unit_k x1 h1, Ideal.mulf_def]

theorem neg_at (x0 : S4096x1024.Idx → EReal) (x2 : S8192x1024.Idx → EReal) (h0 : AllReal x0) (h2 : AllReal x2)
    (b : Fin 4096) (n : Fin 8192) :
    val_main_v17 (F := Ideal) x0 x2 (ix2 b n) = neg (rows x0) (rows x2) b n := by
  rw [val_main_v17_apply]
  refine Finset.sum_congr rfl fun k _ => ?_
  rw [idx_neg_l, idx_neg_r, unit_q x0 h0, unit_c x2 h2]

theorem hinge_at (x0 x1 : S4096x1024.Idx → EReal) (x2 : S8192x1024.Idx → EReal) (h0 : AllReal x0) (h1 : AllReal x1)
    (h2 : AllReal x2) (b : Fin 4096) (n : Fin 8192) :
    val_main_v23 (F := Ideal) x0 x1 x2 (ix2 b n) = hinge (rows x0) (rows x1) (rows x2) b n := by
  rw [val_main_v23_apply, val_main_v22_apply, val_main_v21_apply, val_main_v20_apply, val_main_v19_apply,
    val_main_cst_3_apply, val_main_v18_apply, val_main_call3_v0_apply, val_main_call3_cst_apply, idx_margin,
    pos_at x0 x1 h0 h1, neg_at x0 x2 h0 h2]
  simp only [Ideal.maximumf_def, Ideal.addf_def, Ideal.subf_def, Ideal.ofBits_def]
  rfl

/-- For matrices of reals, the reference's result is the loss. -/
theorem ref_total (x0 x1 : S4096x1024.Idx → EReal) (x2 : S8192x1024.Idx → EReal) (h0 : AllReal x0) (h1 : AllReal x1)
    (h2 : AllReal x2) :
    val_main_v24 (F := Ideal) x0 x1 x2 = fun _ => total (rows x0) (rows x1) (rows x2) := by
  funext i
  rw [val_main_v24_apply, val_main_cst_4_apply, Ideal.ofBits_def, Ideal.ofBits_zero_f32, zero_add, sum_idx2]
  simp only [hinge_at x0 x1 x2 h0 h1 h2]
  exact sum_tiles _

end Cert.RefSide

end
-- ==== Proof.RefRun.lean ====
/-
  The reference's run, read as the specification's loss.

  Every weakly fair execution of the reference terminates with its result at the composed term of its 45 host
  operations and its arguments unchanged (the generated run).  When the three argument matrices hold only real
  numbers that term is the loss of the specification; dropping the result gives the frame.
-/
import proofs.«140744_j18545668784711_2_alg».proof.Defs
import proofs.«140744_j18545668784711_2_alg».proof.Proof.Gen.ReferenceIdeal
import proofs.«140744_j18545668784711_2_alg».proof.Proof.Gen.ReferenceIdeal.Run
import proofs.«140744_j18545668784711_2_alg».proof.Proof.Gen.ReferenceIdeal.Read
import proofs.«140744_j18545668784711_2_alg».proof.Proof.Gen.Pre_finite_inputs
import proofs.«140744_j18545668784711_2_alg».proof.Proof.RefValue

noncomputable section

namespace Cert.RefSide

open Idealize.ShloMosaic Idealize.ShloMosaic.TcCoe Idealize.SL.Sem Cert.HingeSpec

/-- With real arguments, the reference ends with the loss in its result and its arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD, AllReal (m' ((c.tc : Thread Cert.ReferenceIdeal.nD Cert.ReferenceIdeal.τ).loc Cert.ReferenceIdeal.main_arg0))
      ∧ AllReal (m' ((c.tc : Thread Cert.ReferenceIdeal.nD Cert.ReferenceIdeal.τ).loc Cert.ReferenceIdeal.main_arg1))
      ∧ AllReal (m' ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v24) = (fun _ => Cert.HingeSpec.total (rows (m' ((c.tc : Thread Cert.ReferenceIdeal.nD Cert.ReferenceIdeal.τ).loc Cert.ReferenceIdeal.main_arg0))) (rows (m' ((c.tc : Thread Cert.ReferenceIdeal.nD Cert.ReferenceIdeal.τ).loc Cert.ReferenceIdeal.main_arg1))) (rows (m' ((c.tc : Thread Cert.ReferenceIdeal.nD Cert.ReferenceIdeal.τ).loc Cert.ReferenceIdeal.main_arg2))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run (Cert.ReferenceIdeal.defs (F := Ideal)) _ _).mono (fun r h c => ⟨?_, (h c).2⟩)
    (Cert.ReferenceIdeal.Value.run (F := Ideal) m' ρ')
  rw [(h c).1, Cert.ReferenceIdeal.Read.val_main_v24_eq]
  exact ref_total _ _ _ (hreal c).1 (hreal c).2.1 (hreal c).2.2

/-- The reference runs and leaves its arguments unchanged. -/
theorem frame : Cert.frame_ReferenceIdeal := fun m ρ _ =>
  (θ_run (Cert.ReferenceIdeal.defs (F := Ideal)) _ _).mono (fun _ h c => (h c).2) (Cert.ReferenceIdeal.Value.run (F := Ideal) m ρ)

end Cert.RefSide

end
-- ==== Proof.PreReal.lean ====
/-
  The precondition says every entry of the three matrices is a real number.

  The printed predicate compares the absolute value of every entry with +∞ (the float pattern of the positive
  infinity), takes the conjunction over each matrix and the conjunction of the three results.  A conjunction of bits is 1
  only if every bit is 1; an entry `x` with `max x (−x) < +∞` is neither +∞ nor −∞, so it is a real.
-/
import proofs.«140744_j18545668784711_2_alg».proof.Defs
import proofs.«140744_j18545668784711_2_alg».proof.Proof.Gen.Pre_finite_inputs
import proofs.«140744_j18545668784711_2_alg».proof.Proof.Spec
import Idealize.ShloMosaic.Lib.ReduceAll

noncomputable section

namespace Cert.RefSide

open Idealize.ShloMosaic Idealize.ShloMosaic.ValueIdx Cert.HingeSpec

/-- The float pattern of the positive infinity is +∞. -/
theorem inf_eq : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The predicate at the ideal instance: every entry of the three matrices is a real. -/
theorem allReal_of_fn [Cert.Pre_finite_inputs.Facts]
    (a0 a1 : FVec Ideal Cert.Pre_finite_inputs.S4096x1024 .f32) (a2 : FVec Ideal Cert.Pre_finite_inputs.S8192x1024 .f32)
    (h : Cert.Pre_finite_inputs.fn (F := Ideal) a0 a1 a2 = fun _ => 1#1) : AllReal a0 ∧ AllReal a1 ∧ AllReal a2 := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h2 i)

/-- Under the kernel's precondition every entry of its three argument matrices is a real. -/
theorem allReal_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2)) :=
  allReal_of_fn _ _ _ (hpre c)

end Cert.RefSide

end
-- ==== Proof.RefAgree.lean ====
/-
  The reference's run from a memory that agrees with the kernel's on the three arguments.

  Under the kernel's precondition the kernel's argument matrices hold only reals; a reference memory that agrees with
  them holds the same matrices, so the reference ends with the loss of the KERNEL's arguments in its result.
-/
import proofs.«140744_j18545668784711_2_alg».proof.Proof.RefRun
import proofs.«140744_j18545668784711_2_alg».proof.Proof.PreReal

noncomputable section

namespace Cert.RefSide

open Idealize.ShloMosaic Idealize.ShloMosaic.TcCoe Idealize.SL.Sem Cert.HingeSpec

/-- From a memory agreeing with the kernel's on the arguments, the reference ends with the loss of the kernel's
    arguments, its own arguments unchanged. -/
theorem run_agree [hKernelIdeal : Cert.KernelIdeal.Facts] [hReferenceIdeal : Cert.ReferenceIdeal.Facts]
    [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v24) = (fun _ => Cert.HingeSpec.total (rows (m ((c.tc : Thread Cert.KernelIdeal.nD Cert.KernelIdeal.τ).loc Cert.KernelIdeal.main_arg0))) (rows (m ((c.tc : Thread Cert.KernelIdeal.nD Cert.KernelIdeal.τ).loc Cert.KernelIdeal.main_arg1))) (rows (m ((c.tc : Thread Cert.KernelIdeal.nD Cert.KernelIdeal.τ).loc Cert.KernelIdeal.main_arg2))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hreal : ∀ c : Dev Cert.ReferenceIdeal.nD, AllReal (m' ((c.tc : Thread Cert.ReferenceIdeal.nD Cert.ReferenceIdeal.τ).loc Cert.ReferenceIdeal.main_arg0))
      ∧ AllReal (m' ((c.tc : Thread Cert.ReferenceIdeal.nD Cert.ReferenceIdeal.τ).loc Cert.ReferenceIdeal.main_arg1))
      ∧ AllReal (m' ((c.tc : Thread Cert.ReferenceIdeal.nD Cert.ReferenceIdeal.τ).loc Cert.ReferenceIdeal.main_arg2)) := fun c => by
    rw [(hagree c).1, (hagree c).2.1, (hagree c).2.2]
    exact allReal_of_pre m hpre c
  refine (θ_run (Cert.ReferenceIdeal.defs (F := Ideal)) _ _).mono (fun r h c => ⟨?_, (h c).2⟩) (run m' g' hreal)
  rw [(h c).1, (hagree c).1, (hagree c).2.1, (hagree c).2.2]

end Cert.RefSide

end
-- ==== Proof.lean ====
/-
  The certificate's five claims for the pairwise cosine hinge loss computed by three kernel regions.

  The two kernel programs' frames: @main is three kernel regions followed by four host operations; each region's
  per-point obligation is proved by running its body once on symbolic blocks (the third region carries an accumulator
  across grid points, so its invariant names the accumulator's contents point by point); the regions and the host
  stretch are chained through the contents of the unscoped buffers between them, and no segment writes an argument.
  The reference's frame is its run with the result dropped.  The idealization rewrote nothing, so `preserves` is trivial.
  The value claim: at the ideal instance the kernel's result is the loss `total` of the three argument matrices, summed
  tile by tile with every row scaled by the reciprocal of its clamped norm; the reference's is the same loss summed in
  one reduce with every row divided by its clamped norm.  Multiplying by the reciprocal of a positive real is dividing by
  it, and the precondition (every input entry finite) makes each clamped norm a positive real; sums on the extended
  reals regroup freely.
-/
import proofs.«140744_j18545668784711_2_alg».proof.Defs
import proofs.«140744_j18545668784711_2_alg».proof.Proof.Gen.Kernel
import proofs.«140744_j18545668784711_2_alg».proof.Proof.Gen.KernelIdeal
import proofs.«140744_j18545668784711_2_alg».proof.Proof.Gen.ReferenceIdeal
import proofs.«140744_j18545668784711_2_alg».proof.Proof.Gen.ReferenceIdeal.Run
import proofs.«140744_j18545668784711_2_alg».proof.Proof.Gen.ReferenceIdeal.Read
import proofs.«140744_j18545668784711_2_alg».proof.Proof.Gen.Pre_finite_inputs
import proofs.«140744_j18545668784711_2_alg».proof.Proof.Kernel.Frames
import proofs.«140744_j18545668784711_2_alg».proof.Proof.KernelIdeal.Frames
import proofs.«140744_j18545668784711_2_alg».proof.Proof.KernelIdeal.ValueTotal
import proofs.«140744_j18545668784711_2_alg».proof.Proof.RefRun
import proofs.«140744_j18545668784711_2_alg».proof.Proof.RefAgree

noncomputable section

namespace Cert.Proof

open Idealize.ShloMosaic Idealize.ShloMosaic.TcCoe Idealize.SL.Sem Cert.HingeSpec

theorem frame_kernel : Cert.frame_Kernel := fun m ρ _ => Cert.Kernel.Hand.frame m ρ
theorem frame_kernelIdeal : Cert.frame_KernelIdeal := fun m ρ _ => Cert.KernelIdeal.Hand.frame m ρ

/-- Both idealized programs end with the loss of the kernel's argument matrices in their result. -/
theorem algebraic : Cert.algebraic_KernelIdeal_ReferenceIdeal := fun m ρ m' ρ' hpre hagree =>
  ⟨fun c => (fun _ => total
      (rows (m ((c.tc : Thread Cert.KernelIdeal.nD Cert.KernelIdeal.τ).loc Cert.KernelIdeal.main_arg0)))
      (rows (m ((c.tc : Thread Cert.KernelIdeal.nD Cert.KernelIdeal.τ).loc Cert.KernelIdeal.main_arg1)))
      (rows (m ((c.tc : Thread Cert.KernelIdeal.nD Cert.KernelIdeal.τ).loc Cert.KernelIdeal.main_arg2)))),
    Cert.KernelIdeal.Hand.run_total m ρ, Cert.RefSide.run_agree m m' ρ' hpre hagree⟩

theorem claim : Cert.Claim := ⟨Cert.Kernel.Gen.facts, Cert.KernelIdeal.Gen.facts, Cert.ReferenceIdeal.Gen.facts, Cert.Pre_finite_inputs.Gen.facts,
  frame_kernel, frame_kernelIdeal, Cert.RefSide.frame, trivial, algebraic⟩

end Cert.Proof

end
